-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_
  bcast_S_S10x41 : S_.BroadcastsInDim S10x41 (![] : Fin 0 → Fin S10x41.rank)
  reducesTo_S10x41_S_d0_1 : S10x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg4 : FVec F S41 .f32) (main_v13 : IVec S_ 1) (main_v16 : IVec S10x41 1) : IVec S_ 1 :=
  let main_c_5 : IVec S_ 1 := constantI S_ 1 1#1
  let main_v17 : IVec S_ 1 := (fun x v => Host.reduce IntOp.andi x v reducesTo_S10x41_S_d0_1 h_S_) main_v16 main_c_5
  let main_v18 : IVec S_ 1 := andi main_v13 main_v17
  let main_v19 : FVec F S41 .f32 := Host.absf main_arg4
  let main_cst_6 : FVec F S_ .f32 := constant S_ .f32 0x7F800000#32
  let main_v20 : FVec F S41 .f32 := broadcastInDim S41 ![] bcast_S_S41 main_cst_6
  let main_v21 : IVec S41 1 := cmpf .olt main_v19 main_v20
  let main_c_7 : IVec S_ 1 := constantI S_ 1 1#1
  let main_v22 : IVec S_ 1 := (fun x v => Host.reduce IntOp.andi x v reducesTo_S41_S_d0 h_S_) main_v21 main_c_7
  let main_v23 : IVec S_ 1 := andi main_v18 main_v22
  main_v23

def fn {F : FTy → Type} [FloatOps F] (main_arg0 : FVec F S100000x512 .f32) (main_arg1 : FVec F S512x10 .f32) (main_arg2 : FVec F S10 .f32) (main_arg3 : FVec F S10x41 .f32) (main_arg4 : FVec F S41 .f32) (main_arg5 : IVec S3200000 32) (main_arg6 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x10 .f32 := Host.absf main_arg1
  let main_cst_0 : FVec F S_ .f32 := constant S_ .f32 0x7F800000#32
  let main_v5 : FVec F S512x10 .f32 := broadcastInDim S512x10 ![] bcast_S_S512x10 main_cst_0
  let main_v6 : IVec S512x10 1 := cmpf .olt main_v4 main_v5
  let main_c_1 : IVec S_ 1 := constantI S_ 1 1#1
  let main_v7 : IVec S_ 1 := (fun x v => Host.reduce IntOp.andi x v reducesTo_S512x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x41 .f32 := Host.absf main_arg3
  let main_cst_4 : FVec F S_ .f32 := constant S_ .f32 0x7F800000#32
  let main_v15 : FVec F S10x41 .f32 := broadcastInDim S10x41 ![] bcast_S_S10x41 main_cst_4
  let main_v16 : IVec S10x41 1 := cmpf .olt main_v14 main_v15
  fn_part1 (F := F) main_arg4 main_v13 main_v16
-- ==== Kernel.lean ====
abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S4000x512 : Shape := ⟨2, ![4000, 512]⟩
abbrev S4000x10 : Shape := ⟨2, ![4000, 10]⟩
abbrev S3300000x10 : Shape := ⟨2, ![3300000, 10]⟩
abbrev S1x10 : Shape := ⟨2, ![1, 10]⟩
abbrev S1x41 : Shape := ⟨2, ![1, 41]⟩
abbrev S100000x41 : Shape := ⟨2, ![100000, 41]⟩
abbrev S4000x41 : Shape := ⟨2, ![4000, 41]⟩
abbrev S4000 : Shape := ⟨1, ![4000]⟩
abbrev S4000x1 : Shape := ⟨2, ![4000, 1]⟩

abbrev nBuf : Space → Nat
  | .hbm => 84
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S512x10, .f32⟩
  | .hbm, ⟨2, _⟩ => ⟨S10, .f32⟩
  | .hbm, ⟨3, _⟩ => ⟨S10x41, .f32⟩
  | .hbm, ⟨4, _⟩ => ⟨S41, .f32⟩
  | .hbm, ⟨5, _⟩ => ⟨S3200000, .i32⟩
  | .hbm, ⟨6, _⟩ => ⟨S3200000, .i32⟩
  | .hbm, ⟨7, _⟩ => ⟨S100000, .i32⟩
  | .hbm, ⟨8, _⟩ => ⟨S3300000, .i32⟩
  | .hbm, ⟨9, _⟩ => ⟨S3300000, .i32⟩
  | .hbm, ⟨10, _⟩ => ⟨S_, .f32⟩
  | .hbm, ⟨11, _⟩ => ⟨S3300000, .f32⟩
  | .hbm, ⟨12, _⟩ => ⟨S_, .f32⟩
  | .hbm, ⟨13, _⟩ => ⟨S100000, .f32⟩
  | .hbm, ⟨14, _⟩ => ⟨S3300000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3300000, .i32⟩
  | .hbm, ⟨26, _⟩ => ⟨S3300000, .i1⟩
  | .hbm, ⟨27, _⟩ => ⟨S_, .i32⟩
  | .hbm, ⟨28, _⟩ => ⟨S3300000, .i32⟩
  | .hbm, ⟨29, _⟩ => ⟨S3300000, .i32⟩
  | .hbm, ⟨30, _⟩ => ⟨S3300000, .i32⟩
  | .hbm, ⟨31, _⟩ => ⟨S3300000x1, .i32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x10, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x10, .f32⟩
  | .hbm, ⟨53, _⟩ => ⟨S3300000x1, .f32⟩
  | .hbm, ⟨54, _⟩ => ⟨S3300000x10, .f32⟩
  | .hbm, ⟨55, _⟩ => ⟨S3300000x10, .f32⟩
  | .hbm, ⟨56, _⟩ => ⟨S_, .f32⟩
  | .hbm, ⟨57, _⟩ => ⟨S100000x10, .f32⟩
  | .hbm, ⟨58, _⟩ => ⟨S3300000x1, .i32⟩
  | .hbm, ⟨59, _⟩ => ⟨S100000x10, .f32⟩
  | .hbm, ⟨60, _⟩ => ⟨S1x10, .f32⟩
  | .hbm, ⟨61, _⟩ => ⟨S100000x10, .f32⟩
  | .hbm, ⟨62, _⟩ => ⟨S100000x10, .f32⟩
  | .hbm, ⟨63, _⟩ => ⟨S_, .f32⟩
  | .hbm, ⟨64, _⟩ => ⟨S100000x10, .f32⟩
  | .hbm, ⟨65, _⟩ => ⟨S100000x10, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x10, .f32⟩
  | .hbm, ⟨75, _⟩ => ⟨S3300000x1, .f32⟩
  | .hbm, ⟨76, _⟩ => ⟨S3300000x10, .f32⟩
  | .hbm, ⟨77, _⟩ => ⟨S3300000x10, .f32⟩
  | .hbm, ⟨78, _⟩ => ⟨S_, .f32⟩
  | .hbm, ⟨79, _⟩ => ⟨S100000x10, .f32⟩
  | .hbm, ⟨80, _⟩ => ⟨S3300000x1, .i32⟩
  | .hbm, ⟨81, _⟩ => ⟨S100000x10, .f32⟩
  | .hbm, ⟨82, _⟩ => ⟨S1x41, .f32⟩
  | .hbm, ⟨83, _⟩ => ⟨S100000x41, .f32⟩
  | .local _ .vmem, ⟨0, _⟩ => ⟨S4000x512, .f32⟩
  | .local _ .vmem, ⟨1, _⟩ => ⟨S4000x512, .f32⟩
  | .local _ .vmem, ⟨2, _⟩ => ⟨S512x10, .f32⟩
  | .local _ .vmem, ⟨3, _⟩ => ⟨S4000x10, .f32⟩
  | .local _ .vmem, ⟨4, _⟩ => ⟨S4000x10, .f32⟩
  | .local _ .vmem, ⟨5, _⟩ => ⟨S4000x10, .f32⟩
  | .local _ .vmem, ⟨6, _⟩ => ⟨S4000x10, .f32⟩
  | .local _ .vmem, ⟨7, _⟩ => ⟨S10x41, .f32⟩
  | .local _ .vmem, ⟨8, _⟩ => ⟨S1x41, .f32⟩
  | .local _ .vmem, ⟨9, _⟩ => ⟨S4000x41, .f32⟩
  | .local _ .vmem, ⟨10, _⟩ => ⟨S4000x41, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x41 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x41 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x41 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x10_S512x10_0_0 : ∀ a, (![0, 0] : Fin 2 → Nat) a + S512x10.size a ≤ S512x10.size a
  h_S512x10 : 0 < S512x10.numel
  inb_S4000x10_S4000x10_0_0 : ∀ a, (![0, 0] : Fin 2 → Nat) a + S4000x10.size a ≤ S4000x10.size a
  h_S4000x10 : 0 < S4000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  shapeCasts_S41_S1x41 : S41.ShapeCasts S1x41
  shapeCasts_S4000x10_S4000x10 : S4000x10.ShapeCasts S4000x10
  inb_S10x41_S10x41_0_0 : ∀ a, (![0, 0] : Fin 2 → Nat) a + S10x41.size a ≤ S10x41.size a
  h_S10x41 : 0 < S10x41.numel
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S4000x41 : S1x41.Broadcasts S4000x41
  reduces_S4000x41_S4000 : S4000x41.Reduces [1] S4000
  shapeCasts_S4000_S4000x1 : S4000.ShapeCasts S4000x1
  broadcasts_S4000x1_S4000x41 : S4000x1.Broadcasts S4000x41
  inb_S4000x41_S4000x41_0_0 : ∀ a, (![0, 0] : Fin 2 → Nat) a + S4000x41.size a ≤ S4000x41.size a
  h_S4000x41 : 0 < S4000x41.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x10_S4000x10_1_0_0_1_n_n_wf : DotDims.WF S4000x512 S512x10 S4000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S4000x10_S10x41_S4000x41_1_0_0_1_n_n_wf : DotDims.WF S4000x10 S10x41 S4000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x10.size a ≤ S512x10.size a
  hwx0_1 : ∀ i : grid0.Coords, EltTy.bits .f32 = 32 ∨ (Rect.block (s := S512x10) S512x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x10.size a ≤ S100000x10.size a
  hwx0_2 : ∀ i : grid0.Coords, EltTy.bits .f32 = 32 ∨ (Rect.block (s := S100000x10) S4000x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x10.size a ≤ S100000x10.size a
  hwx1_0 : ∀ i : grid1.Coords, EltTy.bits .f32 = 32 ∨ (Rect.block (s := S100000x10) S4000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x41.size a ≤ S10x41.size a
  hwx1_1 : ∀ i : grid1.Coords, EltTy.bits .f32 = 32 ∨ (Rect.block (s := S10x41) S10x41.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x41.size a ≤ S1x41.size a
  hwx1_2 : ∀ i : grid1.Coords, EltTy.bits .f32 = 32 ∨ (Rect.block (s := S1x41) S1x41.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x41.size a ≤ S100000x41.size a
  hwx1_3 : ∀ i : grid1.Coords, EltTy.bits .f32 = 32 ∨ (Rect.block (s := S100000x41) S4000x41.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x10_S4000x10_1_0_0_1_n_n : DotDims S4000x512 S512x10 S4000x10 where
  lhsContracting := [1]
  rhsContracting := [0]
  lhsNonContracting := [0]
  rhsNonContracting := [1]
  lhsBatch := []
  rhsBatch := []
  wf := dot_S4000x512_S512x10_S4000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S4000x10_S10x41_S4000x41_1_0_0_1_n_n : DotDims S4000x10 S10x41 S4000x41 where
  lhsContracting := [1]
  rhsContracting := [0]
  lhsNonContracting := [0]
  rhsNonContracting := [1]
  lhsBatch := []
  rhsBatch := []
  wf := dot_S4000x10_S10x41_S4000x41_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S4000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10x41.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S4000x41.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S3300000x10 : Shape := ⟨2, ![3300000, 10]⟩
abbrev S1x10 : Shape := ⟨2, ![1, 10]⟩
abbrev S100000x41 : Shape := ⟨2, ![100000, 41]⟩
abbrev S3300000x41 : Shape := ⟨2, ![3300000, 41]⟩
abbrev S1x41 : Shape := ⟨2, ![1, 41]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S512x10, .f32⟩
  | 2 => ⟨S10, .f32⟩
  | 3 => ⟨S10x41, .f32⟩
  | 4 => ⟨S41, .f32⟩
  | 5 => ⟨S3200000, .i32⟩
  | 6 => ⟨S3200000, .i32⟩
  | 7 => ⟨S100000, .i32⟩
  | 8 => ⟨S3300000, .i32⟩
  | 9 => ⟨S3300000, .i32⟩
  | 10 => ⟨S_, .f32⟩
  | 11 => ⟨S3300000, .f32⟩
  | 12 => ⟨S_, .f32⟩
  | 13 => ⟨S100000, .f32⟩
  | 14 => ⟨S3300000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S100000x10, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000x10, .f32⟩
  | 53 => ⟨S3300000x1, .f32⟩
  | 54 => ⟨S3300000x10, .f32⟩
  | 55 => ⟨S3300000x10, .f32⟩
  | 56 => ⟨S_, .f32⟩
  | 57 => ⟨S100000x10, .f32⟩
  | 58 => ⟨S3300000x1, .i32⟩
  | 59 => ⟨S100000x10, .f32⟩
  | 60 => ⟨S1x10, .f32⟩
  | 61 => ⟨S100000x10, .f32⟩
  | 62 => ⟨S100000x10, .f32⟩
  | 63 => ⟨S_, .f32⟩
  | 64 => ⟨S100000x10, .f32⟩
  | 65 => ⟨S100000x10, .f32⟩
  | 66 => ⟨S100000, .i32⟩
  | 67 => ⟨S3300000, .i32⟩
  | 68 => ⟨S3300000, .i32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S100000x41, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x41, .f32⟩
  | 112 => ⟨S3300000x1, .f32⟩
  | 113 => ⟨S3300000x41, .f32⟩
  | 114 => ⟨S3300000x41, .f32⟩
  | 115 => ⟨S_, .f32⟩
  | 116 => ⟨S100000x41, .f32⟩
  | 117 => ⟨S3300000x1, .i32⟩
  | 118 => ⟨S100000x41, .f32⟩
  | 119 => ⟨S1x41, .f32⟩
  | 120 => ⟨S100000x41, .f32⟩
  | 121 => ⟨S100000x41, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x41, .f32⟩
  | 1 => ⟨S100000x41, .f32⟩
  | 2 => ⟨S100000x41, .f32⟩
  | 3 => ⟨S_, .f32⟩
  | 4 => ⟨S100000, .f32⟩
  | 5 => ⟨S100000x1, .f32⟩
  | 6 => ⟨S100000x1, .f32⟩
  | 7 => ⟨S100000x41, .f32⟩
  | 8 => ⟨S100000x41, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_19 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v87 : Ref sig .tc := ⟨.hbm, 136, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S3300000x1_S3300000x41_0_1 : S3300000x1.BroadcastsInDim S3300000x41 (![0, 1] : Fin 2 → Fin S3300000x41.rank)
  bcast_S_S100000x41 : S_.BroadcastsInDim S100000x41 (![] : Fin 0 → Fin S100000x41.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  reducesTo_S100000x41_S100000_d1 : S100000x41.ReducesTo [1] S100000
  h_S_ : 0 < S_.numel
  bcast_S100000_S100000x1_0 : S100000.BroadcastsInDim S100000x1 (![0] : Fin 1 → Fin S100000x1.rank)
  bcast_S100000x1_S100000x41_0_1 : S100000x1.BroadcastsInDim S100000x41 (![0, 1] : Fin 2 → Fin S100000x41.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x10_S100000x10_1_0_0_1_n_n_wf : DotDims.WF S100000x512 S512x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  dot_S100000x10_S10x41_S100000x41_1_0_0_1_n_n_wf : DotDims.WF S100000x10 S10x41 S100000x41 [1] [0] [0] [1] [] []
  gather_S100000x41_S3300000x1_S3300000x41_1_0_n_n_0_1_141_wf : GatherDims.WF S100000x41 S3300000x1 S3300000x41 [1] [0] [] [0] [] 1 ![1, 41]
  scatter_S100000x41_S3300000x1_S3300000x41_1_0_0_1_wf : ScatterDims.WF S100000x41 S3300000x1 S3300000x41 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x10_S100000x10_1_0_0_1_n_n : DotDims S100000x512 S512x10 S100000x10 where
  lhsContracting := [1]
  rhsContracting := [0]
  lhsNonContracting := [0]
  rhsNonContracting := [1]
  lhsBatch := []
  rhsBatch := []
  wf := dot_S100000x512_S512x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def dot_S100000x10_S10x41_S100000x41_1_0_0_1_n_n : DotDims S100000x10 S10x41 S100000x41 where
  lhsContracting := [1]
  rhsContracting := [0]
  lhsNonContracting := [0]
  rhsNonContracting := [1]
  lhsBatch := []
  rhsBatch := []
  wf := dot_S100000x10_S10x41_S100000x41_1_0_0_1_n_n_wf
def gather_S100000x41_S3300000x1_S3300000x41_1_0_n_n_0_1_141 : GatherDims S100000x41 S3300000x1 S3300000x41 where
  offsetDims := [1]
  collapsedSliceDims := [0]
  operandBatchingDims := []
  startIndicesBatchingDims := []
  startIndexMap := [0]
  indexVectorDim := 1
  sliceSizes := ![1, 41]
  wf := gather_S100000x41_S3300000x1_S3300000x41_1_0_n_n_0_1_141_wf
def scatter_S100000x41_S3300000x1_S3300000x41_1_0_0_1 : ScatterDims S100000x41 S3300000x1 S3300000x41 where
  updateWindowDims := [1]
  insertedWindowDims := [0]
  scatterDimsToOperandDims := [0]
  indexVectorDim := 1
  wf := scatter_S100000x41_S3300000x1_S3300000x41_1_0_0_1_wf

class Facts : Prop extends Facts₀ where

variable [Facts]
-- ==== Proof.Spec.lean ====
/-
  The graph convolution both programs compute, as host operations over the argument arrays, stage by stage.
  Every node gets a self loop; an edge e goes from s_e to d_e. The degree of a node counts the edges into it,
  the weight of an edge is deg(s_e)^(-1/2) · deg(d_e)^(-1/2) (0 where the degree is not positive), and one
  propagation step replaces a row-per-node table H by the table whose row i is Σ over the edges e into i of
  weight_e · H[s_e]. The hidden layer is relu(propagate(x·W1) + b1). The two programs differ in the second layer
  only: one propagates the hidden table and then multiplies by W2, the other multiplies first.
-/
import Idealize.ShloMosaic.PureOps.Ideal.Laws
import Idealize.ShloMosaic.Lib.ValueIdx

noncomputable section

namespace Cert.Gcn

open Idealize.ShloMosaic

abbrev S100000x512 : Shape := ⟨2, ![100000, 512]⟩
abbrev S512x10 : Shape := ⟨2, ![512, 10]⟩
abbrev S10 : Shape := ⟨1, ![10]⟩
abbrev S10x41 : Shape := ⟨2, ![10, 41]⟩
abbrev S41 : Shape := ⟨1, ![41]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x10 : Shape := ⟨2, ![100000, 10]⟩
abbrev S3300000x10 : Shape := ⟨2, ![3300000, 10]⟩
abbrev S1x10 : Shape := ⟨2, ![1, 10]⟩
abbrev S1x41 : Shape := ⟨2, ![1, 41]⟩
abbrev S100000x41 : Shape := ⟨2, ![100000, 41]⟩
abbrev S3300000x41 : Shape := ⟨2, ![3300000, 41]⟩
abbrev S100000x1 : Shape := ⟨2, ![100000, 1]⟩

theorem hcat : Shape.Concatenates [S3200000, S100000] S3300000 0 := by decide
theorem hb_E : S_.BroadcastsInDim S3300000 (![] : Fin 0 → Fin S3300000.rank) := by decide
theorem hb_N : S_.BroadcastsInDim S100000 (![] : Fin 0 → Fin S100000.rank) := by decide
theorem hb_col : S3300000.BroadcastsInDim S3300000x1 (![0] : Fin 1 → Fin S3300000x1.rank) := by decide
theorem hb_E10 : S3300000x1.BroadcastsInDim S3300000x10 (![0, 1] : Fin 2 → Fin S3300000x10.rank) := by decide
theorem hb_E41 : S3300000x1.BroadcastsInDim S3300000x41 (![0, 1] : Fin 2 → Fin S3300000x41.rank) := by decide
theorem hb_N10 : S_.BroadcastsInDim S100000x10 (![] : Fin 0 → Fin S100000x10.rank) := by decide
theorem hb_N41 : S_.BroadcastsInDim S100000x41 (![] : Fin 0 → Fin S100000x41.rank) := by decide
theorem hb_b1row : S10.BroadcastsInDim S1x10 (![1] : Fin 1 → Fin S1x10.rank) := by decide
theorem hb_b1 : S1x10.BroadcastsInDim S100000x10 (![0, 1] : Fin 2 → Fin S100000x10.rank) := by decide
theorem hb_b2row : S41.BroadcastsInDim S1x41 (![1] : Fin 1 → Fin S1x41.rank) := by decide
theorem hb_b2 : S1x41.BroadcastsInDim S100000x41 (![0, 1] : Fin 2 → Fin S100000x41.rank) := by decide
theorem hb_Ncol : S100000.BroadcastsInDim S100000x1 (![0] : Fin 1 → Fin S100000x1.rank) := by decide
theorem hb_Nrow41 : S100000x1.BroadcastsInDim S100000x41 (![0, 1] : Fin 2 → Fin S100000x41.rank) := by decide
theorem hred41 : S100000x41.ReducesTo [1] S100000 := by decide
theorem hpos_ : 0 < S_.numel := by decide

/-- The degree count: a rank-1 table, one scalar update per edge. -/
def scat1 : ScatterDims S100000 S3300000x1 S3300000 := ⟨[], [0], [0], 1, by decide⟩
/-- Reading a rank-1 table at one index per edge. -/
def gath1 : GatherDims S100000 S3300000x1 S3300000 := ⟨[], [0], [], [], [0], 1, ![1], by decide⟩
/-- Adding one row of width 10 per edge into a table of rows. -/
def scat10 : ScatterDims S100000x10 S3300000x1 S3300000x10 := ⟨[1], [0], [0], 1, by decide⟩
/-- Reading one row of width 10 per edge. -/
def gath10 : GatherDims S100000x10 S3300000x1 S3300000x10 := ⟨[1], [0], [], [], [0], 1, ![1, 10], by decide⟩
/-- The same two for rows of width 41. -/
def scat41 : ScatterDims S100000x41 S3300000x1 S3300000x41 := ⟨[1], [0], [0], 1, by decide⟩
def gath41 : GatherDims S100000x41 S3300000x1 S3300000x41 := ⟨[1], [0], [], [], [0], 1, ![1, 41], by decide⟩
/-- x · W1 and h · W2: rows by columns. -/
def dotA : DotDims S100000x512 S512x10 S100000x10 := ⟨[1], [0], [0], [1], [], [], by decide⟩
def dotB : DotDims S100000x10 S10x41 S100000x41 := ⟨[1], [0], [0], [1], [], [], by decide⟩

variable {F : FTy → Type} [FloatOps F]

/-- The edge list's one end with the self loops appended: the given 3,200,000 node numbers, then 0 … 99,999. -/
def withLoops (a : IVec S3200000 32) : IVec S3300000 32 :=
  concatenate S3300000 0 [⟨S3200000, a⟩, ⟨S100000, iotaInDim S100000 32 0⟩] hcat

/-- The node numbers as a column of start indices. -/
def col (v : IVec S3300000 32) : IVec S3300000x1 32 := broadcastInDim S3300000x1 ![0] hb_col v

/-- The node numbers with a negative one counted from the end (n + 100000), as a column of start indices. -/
def wrapped (v : IVec S3300000 32) : IVec S3300000x1 32 :=
  broadcastInDim S3300000x1 ![0] hb_col
    (select (cmpi .slt v (broadcastInDim S3300000 ![] hb_E (constantI S_ 32 0#32)))
      (addi v (broadcastInDim S3300000 ![] hb_E (constantI S_ 32 100000#32))) v)

/-- The degree of every node: one for each edge that ends in it. -/
def degree (a6 : IVec S3200000 32) : FVec F S100000 .f32 :=
  Host.scatterAdd scat1 (broadcastInDim S100000 ![] hb_N (constant S_ .f32 0x00000000#32)) (col (withLoops a6))
    (broadcastInDim S3300000 ![] hb_E (constant S_ .f32 0x3F800000#32))

/-- deg^(-1/2) where the degree is positive, 0 elsewhere. -/
def invSqrtDeg (a6 : IVec S3200000 32) : FVec F S100000 .f32 :=
  select (cmpf .ogt (degree (F := F) a6) (broadcastInDim S100000 ![] hb_N (constant S_ .f32 0x00000000#32)))
    (Host.rsqrt (degree (F := F) a6))
    (broadcastInDim S100000 ![] hb_N (id (constant S_ .f32 0x00000000#32)))

/-- The weight of every edge: the product of the two ends' deg^(-1/2). -/
def edgeWeight (a5 a6 : IVec S3200000 32) : FVec F S3300000 .f32 :=
  mulf (Host.gather gath1 (invSqrtDeg (F := F) a6) (wrapped (withLoops a5)))
    (Host.gather gath1 (invSqrtDeg (F := F) a6) (wrapped (withLoops a6)))

/-- One propagation step on a table of rows of width 10. -/
def propagate10 (a5 a6 : IVec S3200000 32) (H : FVec F S100000x10 .f32) : FVec F S100000x10 .f32 :=
  Host.scatterAdd scat10 (broadcastInDim S100000x10 ![] hb_N10 (constant S_ .f32 0x00000000#32)) (col (withLoops a6))
    (mulf (Host.gather gath10 H (wrapped (withLoops a5)))
      (broadcastInDim S3300000x10 ![0, 1] hb_E10 (broadcastInDim S3300000x1 ![0] hb_col (edgeWeight (F := F) a5 a6))))

/-- One propagation step on a table of rows of width 41. -/
def propagate41 (a5 a6 : IVec S3200000 32) (Z : FVec F S100000x41 .f32) : FVec F S100000x41 .f32 :=
  Host.scatterAdd scat41 (broadcastInDim S100000x41 ![] hb_N41 (constant S_ .f32 0x00000000#32)) (col (withLoops a6))
    (mulf (Host.gather gath41 Z (wrapped (withLoops a5)))
      (broadcastInDim S3300000x41 ![0, 1] hb_E41 (broadcastInDim S3300000x1 ![0] hb_col (edgeWeight (F := F) a5 a6))))

/-- The hidden layer from the first dense product P = x · W1: relu(propagate P + b1). -/
def hidden (a5 a6 : IVec S3200000 32) (b1 : FVec F S10 .f32) (P : FVec F S100000x10 .f32) : FVec F S100000x10 .f32 :=
  maximumf (addf (propagate10 a5 a6 P) (broadcastInDim S100000x10 ![0, 1] hb_b1 (broadcastInDim S1x10 ![1] hb_b1row b1)))
    (broadcastInDim S100000x10 ![] hb_N10 (constant S_ .f32 0x00000000#32))

/-- The row-wise log-softmax as the host computes it. -/
def hostLogSoftmax (Z : FVec F S100000x41 .f32) : FVec F S100000x41 .f32 :=
  subf
    (subf Z (broadcastInDim S100000x41 ![0, 1] hb_Nrow41 (broadcastInDim S100000x1 ![0] hb_Ncol
      (maximumf (broadcastInDim S100000 ![] hb_N (constant S_ .f32 0xFF800000#32))
        (Host.reduce FloatOps.maximumf Z (constant S_ .f32 0xFF800000#32) hred41 hpos_)))))
    (broadcastInDim S100000x41 ![0, 1] hb_Nrow41 (Host.log (broadcastInDim S100000x1 ![0] hb_Ncol
      (Host.reduceAdd
        (Host.exp (subf Z (broadcastInDim S100000x41 ![0, 1] hb_Nrow41 (broadcastInDim S100000x1 ![0] hb_Ncol
          (maximumf (broadcastInDim S100000 ![] hb_N (constant S_ .f32 0xFF800000#32))
            (Host.reduce FloatOps.maximumf Z (constant S_ .f32 0xFF800000#32) hred41 hpos_))))))
        (constant S_ .f32 0x00000000#32) hred41 hpos_))))

/-- The reference's result: dense, propagate, relu, dense, propagate, bias, log-softmax. -/
def referenceResult (x : FVec F S100000x512 .f32) (W1 : FVec F S512x10 .f32) (b1 : FVec F S10 .f32)
    (W2 : FVec F S10x41 .f32) (b2 : FVec F S41 .f32) (a5 a6 : IVec S3200000 32) : FVec F S100000x41 .f32 :=
  hostLogSoftmax
    (addf (propagate41 a5 a6 (Host.dotGeneral dotB none (hidden a5 a6 b1 (Host.dotGeneral dotA none x W1)) W2))
      (broadcastInDim S100000x41 ![0, 1] hb_b2 (broadcastInDim S1x41 ![1] hb_b2row b2)))

/-- What the kernel program hands its second pallas_call: the hidden layer propagated once more, from the first
    call's result P. -/
def kernelAggregate (a5 a6 : IVec S3200000 32) (b1 : FVec F S10 .f32) (P : FVec F S100000x10 .f32) : FVec F S100000x10 .f32 :=
  propagate10 a5 a6 (hidden a5 a6 b1 P)

end Cert.Gcn

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.RefRun.lean ====
/-
  The reference program's run, read back: its @main is a straight line of host operations, so every weakly fair
  execution ends with the result buffer at the operations' composed value of the arguments — the reference's
  result of Spec.lean — and the arguments as launched.
-/
import proofs.«129149_j37495064494211_2_alg».proof.Proof.Gen.ReferenceIdeal
import proofs.«129149_j37495064494211_2_alg».proof.Proof.Spec
import proofs.«129149_j37495064494211_2_alg».proof.Proof.LibTypedRefs
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's host operations, in order (a called function's operations stand in its call's place). -/
abbrev ops : List (HloOp τ sig (Elt F)) :=
  [ nullary main_v0 (iotaInDim S100000 32 0),
    binary main_arg5 main_v0 main_v1 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg6 main_v0 main_v2 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v3 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v4 (broadcastInDim S100000 ![] bcast_S_S100000 : (⟨S_, .f32⟩ : BufTy).Contents (Elt F) → (⟨S100000, .f32⟩ : BufTy).Contents (Elt F)),
    unary main_v2 main_v5 (broadcastInDim S3300000x1 ![0] bcast_S3300000_S3300000x1_0 : (⟨S3300000, .i32⟩ : BufTy).Contents (Elt F) → (⟨S3300000x1, .i32⟩ : BufTy).Contents (Elt F)),
    ternary main_v4 main_v5 main_v3 main_v6 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v7 (broadcastInDim S100000 ![] bcast_S_S100000 : (⟨S_, .f32⟩ : BufTy).Contents (Elt F) → (⟨S100000, .f32⟩ : BufTy).Contents (Elt F)),
    binary main_v6 main_v7 main_v8 (cmpf .ogt : (⟨S100000, .f32⟩ : BufTy).Contents (Elt F) → (⟨S100000, .f32⟩ : BufTy).Contents (Elt F) → (⟨S100000, .i1⟩ : BufTy).Contents (Elt F)),
    unary main_v6 main_v9 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v8) (TRef.of (T := ⟨S100000, .f32⟩) main_v9) (TRef.of (T := ⟨S100000, .f32⟩) main_call0_v1) (TRef.of (T := ⟨S100000, .f32⟩) main_v10) select,
    nullary main_c (constantI S_ 32 0#32),
    unary main_c main_v11 (broadcastInDim S3300000 ![] bcast_S_S3300000 : (⟨S_, .i32⟩ : BufTy).Contents (Elt F) → (⟨S3300000, .i32⟩ : BufTy).Contents (Elt F)),
    binary main_v1 main_v11 main_v12 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v13 (broadcastInDim S3300000 ![] bcast_S_S3300000 : (⟨S_, .i32⟩ : BufTy).Contents (Elt F) → (⟨S3300000, .i32⟩ : BufTy).Contents (Elt F)),
    binary main_v1 main_v13 main_v14 (addi : (⟨S3300000, .i32⟩ : BufTy).Contents (Elt F) → (⟨S3300000, .i32⟩ : BufTy).Contents (Elt F) → (⟨S3300000, .i32⟩ : BufTy).Contents (Elt F)),
    ternary main_v12 main_v14 main_v1 main_v15 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v15 main_v16 (broadcastInDim S3300000x1 ![0] bcast_S3300000_S3300000x1_0 : (⟨S3300000, .i32⟩ : BufTy).Contents (Elt F) → (⟨S3300000x1, .i32⟩ : BufTy).Contents (Elt F)),
    binary main_v10 main_v16 main_v17 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v18 (broadcastInDim S3300000 ![] bcast_S_S3300000 : (⟨S_, .i32⟩ : BufTy).Contents (Elt F) → (⟨S3300000, .i32⟩ : BufTy).Contents (Elt F)),
    binary main_v2 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v20 (broadcastInDim S3300000 ![] bcast_S_S3300000 : (⟨S_, .i32⟩ : BufTy).Contents (Elt F) → (⟨S3300000, .i32⟩ : BufTy).Contents (Elt F)),
    binary main_v2 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v2 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v10 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v17 main_v24 main_v25 (mulf : (⟨S3300000, .f32⟩ : BufTy).Contents (Elt F) → (⟨S3300000, .f32⟩ : BufTy).Contents (Elt F) → (⟨S3300000, .f32⟩ : BufTy).Contents (Elt F)),
    binary main_arg0 main_arg1 main_v26 ((fun l r => Host.dotGeneral dot_S100000x512_S512x10_S100000x10_1_0_0_1_n_n none l r) : (⟨S100000x512, .f32⟩ : BufTy).Contents (Elt F) → (⟨S512x10, .f32⟩ : BufTy).Contents (Elt F) → (⟨S100000x10, .f32⟩ : BufTy).Contents (Elt F)),
    nullary main_c_6 (constantI S_ 32 0#32),
    unary main_c_6 main_v27 (broadcastInDim S3300000 ![] bcast_S_S3300000 : (⟨S_, .i32⟩ : BufTy).Contents (Elt F) → (⟨S3300000, .i32⟩ : BufTy).Contents (Elt F)),
    binary main_v1 main_v27 main_v28 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v29 (broadcastInDim S3300000 ![] bcast_S_S3300000 : (⟨S_, .i32⟩ : BufTy).Contents (Elt F) → (⟨S3300000, .i32⟩ : BufTy).Contents (Elt F)),
    binary main_v1 main_v29 main_v30 (addi : (⟨S3300000, .i32⟩ : BufTy).Contents (Elt F) → (⟨S3300000, .i32⟩ : BufTy).Contents (Elt F) → (⟨S3300000, .i32⟩ : BufTy).Contents (Elt F)),
    ternary main_v28 main_v30 main_v1 main_v31 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v31 main_v32 (broadcastInDim S3300000x1 ![0] bcast_S3300000_S3300000x1_0 : (⟨S3300000, .i32⟩ : BufTy).Contents (Elt F) → (⟨S3300000x1, .i32⟩ : BufTy).Contents (Elt F)),
    binary main_v26 main_v32 main_v33 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v25 main_v34 (broadcastInDim S3300000x1 ![0] bcast_S3300000_S3300000x1_0 : (⟨S3300000, .f32⟩ : BufTy).Contents (Elt F) → (⟨S3300000x1, .f32⟩ : BufTy).Contents (Elt F)),
    unary main_v34 main_v35 (broadcastInDim S3300000x10 ![0, 1] bcast_S3300000x1_S3300000x10_0_1 : (⟨S3300000x1, .f32⟩ : BufTy).Contents (Elt F) → (⟨S3300000x10, .f32⟩ : BufTy).Contents (Elt F)),
    binary main_v33 main_v35 main_v36 (mulf : (⟨S3300000x10, .f32⟩ : BufTy).Contents (Elt F) → (⟨S3300000x10, .f32⟩ : BufTy).Contents (Elt F) → (⟨S3300000x10, .f32⟩ : BufTy).Contents (Elt F)),
    nullary main_cst_8 (constant S_ .f32 0x00000000#32),
    unary main_cst_8 main_v37 (broadcastInDim S100000x10 ![] bcast_S_S100000x10 : (⟨S_, .f32⟩ : BufTy).Contents (Elt F) → (⟨S100000x10, .f32⟩ : BufTy).Contents (Elt F)),
    unary main_v2 main_v38 (broadcastInDim S3300000x1 ![0] bcast_S3300000_S3300000x1_0 : (⟨S3300000, .i32⟩ : BufTy).Contents (Elt F) → (⟨S3300000x1, .i32⟩ : BufTy).Contents (Elt F)),
    ternary main_v37 main_v38 main_v36 main_v39 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)),
    unary main_arg2 main_v40 (broadcastInDim S1x10 ![1] bcast_S10_S1x10_1 : (⟨S10, .f32⟩ : BufTy).Contents (Elt F) → (⟨S1x10, .f32⟩ : BufTy).Contents (Elt F)),
    unary main_v40 main_v41 (broadcastInDim S100000x10 ![0, 1] bcast_S1x10_S100000x10_0_1 : (⟨S1x10, .f32⟩ : BufTy).Contents (Elt F) → (⟨S100000x10, .f32⟩ : BufTy).Contents (Elt F)),
    binary main_v39 main_v41 main_v42 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x10, .f32⟩) main_call1_v0) (broadcastInDim S100000x10 ![] bcast_S_S100000x10),
    TRef.binary (TRef.of (T := ⟨S100000x10, .f32⟩) main_v42) (TRef.of (T := ⟨S100000x10, .f32⟩) main_call1_v0) (TRef.of (T := ⟨S100000x10, .f32⟩) main_v43) maximumf,
    nullary main_v44 (iotaInDim S100000 32 0),
    binary main_arg5 main_v44 main_v45 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg6 main_v44 main_v46 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v47 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v48 (broadcastInDim S100000 ![] bcast_S_S100000 : (⟨S_, .f32⟩ : BufTy).Contents (Elt F) → (⟨S100000, .f32⟩ : BufTy).Contents (Elt F)),
    unary main_v46 main_v49 (broadcastInDim S3300000x1 ![0] bcast_S3300000_S3300000x1_0 : (⟨S3300000, .i32⟩ : BufTy).Contents (Elt F) → (⟨S3300000x1, .i32⟩ : BufTy).Contents (Elt F)),
    ternary main_v48 main_v49 main_v47 main_v50 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v51 (broadcastInDim S100000 ![] bcast_S_S100000 : (⟨S_, .f32⟩ : BufTy).Contents (Elt F) → (⟨S100000, .f32⟩ : BufTy).Contents (Elt F)),
    binary main_v50 main_v51 main_v52 (cmpf .ogt : (⟨S100000, .f32⟩ : BufTy).Contents (Elt F) → (⟨S100000, .f32⟩ : BufTy).Contents (Elt F) → (⟨S100000, .i1⟩ : BufTy).Contents (Elt F)),
    unary main_v50 main_v53 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v52) (TRef.of (T := ⟨S100000, .f32⟩) main_v53) (TRef.of (T := ⟨S100000, .f32⟩) main_call2_v1) (TRef.of (T := ⟨S100000, .f32⟩) main_v54) select,
    nullary main_c_13 (constantI S_ 32 0#32),
    unary main_c_13 main_v55 (broadcastInDim S3300000 ![] bcast_S_S3300000 : (⟨S_, .i32⟩ : BufTy).Contents (Elt F) → (⟨S3300000, .i32⟩ : BufTy).Contents (Elt F)),
    binary main_v45 main_v55 main_v56 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v57 (broadcastInDim S3300000 ![] bcast_S_S3300000 : (⟨S_, .i32⟩ : BufTy).Contents (Elt F) → (⟨S3300000, .i32⟩ : BufTy).Contents (Elt F)),
    binary main_v45 main_v57 main_v58 (addi : (⟨S3300000, .i32⟩ : BufTy).Contents (Elt F) → (⟨S3300000, .i32⟩ : BufTy).Contents (Elt F) → (⟨S3300000, .i32⟩ : BufTy).Contents (Elt F)),
    ternary main_v56 main_v58 main_v45 main_v59 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v59 main_v60 (broadcastInDim S3300000x1 ![0] bcast_S3300000_S3300000x1_0 : (⟨S3300000, .i32⟩ : BufTy).Contents (Elt F) → (⟨S3300000x1, .i32⟩ : BufTy).Contents (Elt F)),
    binary main_v54 main_v60 main_v61 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v62 (broadcastInDim S3300000 ![] bcast_S_S3300000 : (⟨S_, .i32⟩ : BufTy).Contents (Elt F) → (⟨S3300000, .i32⟩ : BufTy).Contents (Elt F)),
    binary main_v46 main_v62 main_v63 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v64 (broadcastInDim S3300000 ![] bcast_S_S3300000 : (⟨S_, .i32⟩ : BufTy).Contents (Elt F) → (⟨S3300000, .i32⟩ : BufTy).Contents (Elt F)),
    binary main_v46 main_v64 main_v65 (addi : (⟨S3300000, .i32⟩ : BufTy).Contents (Elt F) → (⟨S3300000, .i32⟩ : BufTy).Contents (Elt F) → (⟨S3300000, .i32⟩ : BufTy).Contents (Elt F)),
    ternary main_v63 main_v65 main_v46 main_v66 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v66 main_v67 (broadcastInDim S3300000x1 ![0] bcast_S3300000_S3300000x1_0 : (⟨S3300000, .i32⟩ : BufTy).Contents (Elt F) → (⟨S3300000x1, .i32⟩ : BufTy).Contents (Elt F)),
    binary main_v54 main_v67 main_v68 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v61 main_v68 main_v69 (mulf : (⟨S3300000, .f32⟩ : BufTy).Contents (Elt F) → (⟨S3300000, .f32⟩ : BufTy).Contents (Elt F) → (⟨S3300000, .f32⟩ : BufTy).Contents (Elt F)),
    binary main_v43 main_arg3 main_v70 ((fun l r => Host.dotGeneral dot_S100000x10_S10x41_S100000x41_1_0_0_1_n_n none l r) : (⟨S100000x10, .f32⟩ : BufTy).Contents (Elt F) → (⟨S10x41, .f32⟩ : BufTy).Contents (Elt F) → (⟨S100000x41, .f32⟩ : BufTy).Contents (Elt F)),
    nullary main_c_17 (constantI S_ 32 0#32),
    unary main_c_17 main_v71 (broadcastInDim S3300000 ![] bcast_S_S3300000 : (⟨S_, .i32⟩ : BufTy).Contents (Elt F) → (⟨S3300000, .i32⟩ : BufTy).Contents (Elt F)),
    binary main_v45 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v73 (broadcastInDim S3300000 ![] bcast_S_S3300000 : (⟨S_, .i32⟩ : BufTy).Contents (Elt F) → (⟨S3300000, .i32⟩ : BufTy).Contents (Elt F)),
    binary main_v45 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v45 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v70 main_v76 main_v77 ((fun x i => Host.gather gather_S100000x41_S3300000x1_S3300000x41_1_0_n_n_0_1_141 x i) : (⟨S100000x41, .f32⟩ : BufTy).Contents (Elt F) → (⟨S3300000x1, .i32⟩ : BufTy).Contents (Elt F) → (⟨S3300000x41, .f32⟩ : BufTy).Contents (Elt F)),
    unary main_v69 main_v78 (broadcastInDim S3300000x1 ![0] bcast_S3300000_S3300000x1_0 : (⟨S3300000, .f32⟩ : BufTy).Contents (Elt F) → (⟨S3300000x1, .f32⟩ : BufTy).Contents (Elt F)),
    unary main_v78 main_v79 (broadcastInDim S3300000x41 ![0, 1] bcast_S3300000x1_S3300000x41_0_1 : (⟨S3300000x1, .f32⟩ : BufTy).Contents (Elt F) → (⟨S3300000x41, .f32⟩ : BufTy).Contents (Elt F)),
    binary main_v77 main_v79 main_v80 (mulf : (⟨S3300000x41, .f32⟩ : BufTy).Contents (Elt F) → (⟨S3300000x41, .f32⟩ : BufTy).Contents (Elt F) → (⟨S3300000x41, .f32⟩ : BufTy).Contents (Elt F)),
    nullary main_cst_19 (constant S_ .f32 0x00000000#32),
    unary main_cst_19 main_v81 (broadcastInDim S100000x41 ![] bcast_S_S100000x41 : (⟨S_, .f32⟩ : BufTy).Contents (Elt F) → (⟨S100000x41, .f32⟩ : BufTy).Contents (Elt F)),
    unary main_v46 main_v82 (broadcastInDim S3300000x1 ![0] bcast_S3300000_S3300000x1_0 : (⟨S3300000, .i32⟩ : BufTy).Contents (Elt F) → (⟨S3300000x1, .i32⟩ : BufTy).Contents (Elt F)),
    ternary main_v81 main_v82 main_v80 main_v83 ((fun x i u => Host.scatterAdd scatter_S100000x41_S3300000x1_S3300000x41_1_0_0_1 x i u) : (⟨S100000x41, .f32⟩ : BufTy).Contents (Elt F) → (⟨S3300000x1, .i32⟩ : BufTy).Contents (Elt F) → (⟨S3300000x41, .f32⟩ : BufTy).Contents (Elt F) → (⟨S100000x41, .f32⟩ : BufTy).Contents (Elt F)),
    unary main_arg4 main_v84 (broadcastInDim S1x41 ![1] bcast_S41_S1x41_1 : (⟨S41, .f32⟩ : BufTy).Contents (Elt F) → (⟨S1x41, .f32⟩ : BufTy).Contents (Elt F)),
    unary main_v84 main_v85 (broadcastInDim S100000x41 ![0, 1] bcast_S1x41_S100000x41_0_1 : (⟨S1x41, .f32⟩ : BufTy).Contents (Elt F) → (⟨S100000x41, .f32⟩ : BufTy).Contents (Elt F)),
    binary main_v83 main_v85 main_v86 (addf : (⟨S100000x41, .f32⟩ : BufTy).Contents (Elt F) → (⟨S100000x41, .f32⟩ : BufTy).Contents (Elt F) → (⟨S100000x41, .f32⟩ : BufTy).Contents (Elt F)),
    TRef.nullary (TRef.of (T := ⟨S_, .f32⟩) main_call3_cst) (constant S_ .f32 0xFF800000#32),
    TRef.binary (TRef.of (T := ⟨S100000x41, .f32⟩) main_v86) (TRef.of (T := ⟨S_, .f32⟩) main_call3_cst) (TRef.of (T := ⟨S100000, .f32⟩) main_call3_v0) (fun x v => Host.reduce FloatOps.maximumf x v reducesTo_S100000x41_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x41, .f32⟩) main_call3_v4) (broadcastInDim S100000x41 ![0, 1] bcast_S100000x1_S100000x41_0_1),
    TRef.binary (TRef.of (T := ⟨S100000x41, .f32⟩) main_v86) (TRef.of (T := ⟨S100000x41, .f32⟩) main_call3_v4) (TRef.of (T := ⟨S100000x41, .f32⟩) main_call3_v5) subf,
    TRef.unary (TRef.of (T := ⟨S100000x41, .f32⟩) main_call3_v5) (TRef.of (T := ⟨S100000x41, .f32⟩) main_call3_v6) Host.exp,
    TRef.nullary (TRef.of (T := ⟨S_, .f32⟩) main_call3_cst_1) (constant S_ .f32 0x00000000#32),
    TRef.binary (TRef.of (T := ⟨S100000x41, .f32⟩) main_call3_v6) (TRef.of (T := ⟨S_, .f32⟩) main_call3_cst_1) (TRef.of (T := ⟨S100000, .f32⟩) main_call3_v7) (fun x v => Host.reduceAdd x v reducesTo_S100000x41_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x41, .f32⟩) main_call3_v10) (broadcastInDim S100000x41 ![0, 1] bcast_S100000x1_S100000x41_0_1),
    TRef.binary (TRef.of (T := ⟨S100000x41, .f32⟩) main_call3_v5) (TRef.of (T := ⟨S100000x41, .f32⟩) main_call3_v10) (TRef.of (T := ⟨S100000x41, .f32⟩) main_v87) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 52000000 in
/-- The result buffer after all the operations is the reference's result of the arguments. -/
theorem result_eq (V : Valuation τ sig (Elt F)) :
    after (ops (F := F)) V (Proc.devRef .tc main_v87)
      = (Cert.Gcn.referenceResult (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))) := by
  after_results_simp
  simp only [TRef.ofBuf_toBuf]
  rfl

set_option maxRecDepth 8192 in
set_option maxHeartbeats 52000000 in
/-- From any memory with zero counters every weakly fair execution of the reference terminates, its result buffer
    at the reference's result of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
        = (Cert.Gcn.referenceResult (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v87).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.Gcn.RefRun

end
-- ==== Proof.KernelRun.lean ====
/-
  The idealized kernel program's run, with its result named: @main is a line of host operations, a pallas_call, more
  host operations and a second pallas_call. Every weakly fair execution terminates without a fault, the arguments end
  as launched, and the result buffer ends at what the last boundary of the run holds there — the second call's output
  array after its write-backs.
-/
import proofs.«129149_j37495064494211_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments of @main, read at the result buffer too: the final memory holds, at every unscoped
    buffer, the last boundary's contents. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.Gcn.KernelRun

end
-- ==== Proof.KernelHost.lean ====
/-
  The host operations of the kernel program, stretch by stretch. Before the first pallas_call they build the edge
  lists with their self loops and the edge weights; between the two calls they propagate the first call's result,
  add the bias, apply relu and propagate again; the bias of the second layer is handed over as a one-row table.
-/
import proofs.«129149_j37495064494211_2_alg».proof.Proof.Gen.KernelIdeal.Frame
import proofs.«129149_j37495064494211_2_alg».proof.Proof.Spec
import proofs.«129149_j37495064494211_2_alg».proof.Proof.LibTypedRefs
import Idealize.ShloMosaic.Lib.StableHlo.Run

noncomputable section

namespace Cert.Gcn.KernelHost

open Cert.KernelIdeal Cert.KernelIdeal.Gen
open Idealize.ShloMosaic Idealize.ShloMosaic.TcCoe Idealize.SL.Sem Idealize.ShloMosaic.StableHlo

variable {F : FTy → Type} [FloatOps F]

/-! ## Before the first call -/

section Before

variable (X : Valuation τ sig (Elt F))

/-- The stretches before the first call, from any contents. -/
abbrev before : Valuation τ sig (Elt F) := after hostOps0_2 (after hostOps0_1 (after hostOps0 X))

set_option maxRecDepth 8192 in
set_option maxHeartbeats 4000000 in
theorem before_sources : before X (Proc.devRef .tc main_v1) = (Cert.Gcn.withLoops (X (Proc.devRef .tc main_arg5)) : IVec Cert.Gcn.S3300000 32) := by
  dsimp only [before, hostOps0, hostOps0_1, hostOps0_2]
  after_results_simp
  rfl

set_option maxRecDepth 8192 in
set_option maxHeartbeats 4000000 in
theorem before_targets : before X (Proc.devRef .tc main_v2) = (Cert.Gcn.withLoops (X (Proc.devRef .tc main_arg6)) : IVec Cert.Gcn.S3300000 32) := by
  dsimp only [before, hostOps0, hostOps0_1, hostOps0_2]
  after_results_simp
  rfl

set_option maxRecDepth 8192 in
set_option maxHeartbeats 16000000 in
theorem before_weights : before X (Proc.devRef .tc main_v25)
    = (Cert.Gcn.edgeWeight (F := F) (X (Proc.devRef .tc main_arg5)) (X (Proc.devRef .tc main_arg6)) : FVec F Cert.Gcn.S3300000 .f32) := by
  dsimp only [before, hostOps0, hostOps0_1, hostOps0_2]
  after_results_simp
  simp only [TRef.ofBuf_toBuf]
  rfl

/-! No operation before the first call writes an argument. -/

set_option maxRecDepth 8192 in
set_option maxHeartbeats 4000000 in
theorem before_keeps_arg0 : before X (Proc.devRef .tc main_arg0) = X (Proc.devRef .tc main_arg0) := by
  dsimp only [before, hostOps0, hostOps0_1, hostOps0_2]
  after_results_simp

set_option maxRecDepth 8192 in
set_option maxHeartbeats 4000000 in
theorem before_keeps_arg1 : before X (Proc.devRef .tc main_arg1) = X (Proc.devRef .tc main_arg1) := by
  dsimp only [before, hostOps0, hostOps0_1, hostOps0_2]
  after_results_simp

set_option maxRecDepth 8192 in
set_option maxHeartbeats 4000000 in
theorem before_keeps_arg2 : before X (Proc.devRef .tc main_arg2) = X (Proc.devRef .tc main_arg2) := by
  dsimp only [before, hostOps0, hostOps0_1, hostOps0_2]
  after_results_simp

set_option maxRecDepth 8192 in
set_option maxHeartbeats 4000000 in
theorem before_keeps_arg3 : before X (Proc.devRef .tc main_arg3) = X (Proc.devRef .tc main_arg3) := by
  dsimp only [before, hostOps0, hostOps0_1, hostOps0_2]
  after_results_simp

set_option maxRecDepth 8192 in
set_option maxHeartbeats 4000000 in
theorem before_keeps_arg4 : before X (Proc.devRef .tc main_arg4) = X (Proc.devRef .tc main_arg4) := by
  dsimp only [before, hostOps0, hostOps0_1, hostOps0_2]
  after_results_simp

end Before

/-! ## Between the two calls -/

section Between

variable (X : Valuation τ sig (Elt F))

/-- The stretches between the two calls, from any contents. -/
abbrev between : Valuation τ sig (Elt F) := after hostOps1_2 (after hostOps1_1 (after hostOps1 X))

set_option maxRecDepth 8192 in
set_option maxHeartbeats 16000000 in
/-- What the second call is given as its first operand: the hidden layer propagated, from the first call's result. -/
theorem between_aggregate (a5 a6 : IVec Cert.Gcn.S3200000 32)
    (h1 : X (Proc.devRef .tc main_v1) = (Cert.Gcn.withLoops a5 : IVec Cert.Gcn.S3300000 32))
    (h2 : X (Proc.devRef .tc main_v2) = (Cert.Gcn.withLoops a6 : IVec Cert.Gcn.S3300000 32))
    (h25 : X (Proc.devRef .tc main_v25) = (Cert.Gcn.edgeWeight (F := F) a5 a6 : FVec F Cert.Gcn.S3300000 .f32)) :
    between X (Proc.devRef .tc main_v56)
      = (Cert.Gcn.kernelAggregate (F := F) a5 a6 (X (Proc.devRef .tc main_arg2)) (X (Proc.devRef .tc main_v26)) : FVec F Cert.Gcn.S100000x10 .f32) := by
  dsimp only [between, hostOps1, hostOps1_1, hostOps1_2]
  after_results_simp
  simp only [TRef.ofBuf_toBuf]
  rw [h1, h2, h25]
  rfl

set_option maxRecDepth 8192 in
set_option maxHeartbeats 4000000 in
/-- The second layer's bias as a one-row table. -/
theorem between_biasRow : between X (Proc.devRef .tc main_v57)
    = (shapeCast S1x41 (X (Proc.devRef .tc main_arg4)) Facts₀.shapeCasts_S41_S1x41 : FVec F S1x41 .f32) := by
  dsimp only [between, hostOps1, hostOps1_1, hostOps1_2]
  after_results_simp
  rfl

set_option maxRecDepth 8192 in
set_option maxHeartbeats 4000000 in
/-- No operation between the calls writes the second layer's weights. -/
theorem between_keeps_arg3 : between X (Proc.devRef .tc main_arg3) = X (Proc.devRef .tc main_arg3) := by
  dsimp only [between, hostOps1, hostOps1_1, hostOps1_2]
  after_results_simp

end Between

end Cert.Gcn.KernelHost

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«129149_j37495064494211_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Region0Value.lean ====
/-
  The first region's result array, entry by entry.

  The region multiplies a [100000, 512] array by a [512, 10] array in 25 blocks of 4000 rows: at each point it reads one
  block of rows of the left operand and the whole right operand, forms the block of rows of the product from a zero
  accumulator (the narrowings to bf16 are the identity over the extended reals), and writes that block of the result.
  A block of rows of a product is the product of the block of rows with the right operand, so every point writes its
  block of ONE whole-array function, the product; the 25 row blocks tile the result, which therefore ends holding
  Σ_k x[p, k] · W[k, q] at every (p, q), whatever the arrays hold when the region is entered.
-/
import proofs.«129149_j37495064494211_2_alg».proof.Proof.Gen.KernelIdeal.Frame
import proofs.«129149_j37495064494211_2_alg».proof.Proof.LibDotInnerHost
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Gcn.Region0

open Cert.KernelIdeal Cert.KernelIdeal.Gen

variable (V : (c : Dev nD) → (b : Ref sig .tc) → Buf (Elt Ideal) ((c : Thread nD τ).loc b))

/-- The record of the product says rows-by-columns. -/
theorem plain0 : DotInner.Plain dot_S4000x512_S512x10_S4000x10_1_0_0_1_n_n :=
  plain_record dot_S4000x512_S512x10_S4000x10_1_0_0_1_n_n, S4000x512, S512x10

/-- The block's payload at (r, q): the inner product of row r of the left block with column q of the right one
    (the narrowing to bf16 is the identity over the extended reals; the matrix unit starts from the zero splat). -/
theorem pay0_at (x0 : Vec Ideal S4000x512 .f32) (x1 : Vec Ideal S512x10 .f32) (r : Fin 4000) (q : Fin 10) :
    k0_pay1 (F := Ideal) x0 x1 (ix2 r q) = ∑ k : Fin 512, x0 (ix2 r k) * x1 (ix2 k q) := by
  unfold k0_pay1
  exact plain0.matmul_zero none _ _ r q

/-- The product of a [100000, 512] array with a [512, 10] array, entry by entry. -/
def prod (A : S100000x512.Idx → EReal) (W : S512x10.Idx → EReal) : S100000x10.Idx → EReal :=
  fun i => ∑ k : Fin 512, A (ix2 (i 0) k) * W (ix2 k (i 1))

/-- A block of rows times the whole right operand is the same block of rows of the product: if row (j 0) of the
    left block is row (i 0) of the left array and column (j 1) of the right block is column (i 1) of the right
    array, the payload at j is the product at i. -/
theorem blk_at (A : S100000x512.Idx → EReal) (W : S512x10.Idx → EReal)
    (x0 : Vec Ideal S4000x512 .f32) (x1 : Vec Ideal S512x10 .f32) (j : S4000x10.Idx) (i : S100000x10.Idx)
    (h0 : ∀ k : Fin 512, x0 (ix2 (j 0) k) = A (ix2 (i 0) k))
    (h1 : ∀ k : Fin 512, x1 (ix2 k (j 1)) = W (ix2 k (i 1))) :
    k0_pay1 (F := Ideal) x0 x1 j = prod A W i := by
  refine ((congrArg (k0_pay1 (F := Ideal) x0 x1) (eq_ix2 j)).trans (pay0_at x0 x1 (j 0) (j 1))).trans ?_
  exact Finset.sum_congr rfl fun k _ => by rw [h0 k, h1 k]

theorem hz : (![0, 0] : Fin 2 → Nat) = fun _ => 0 := funext fun a => by fin_cases a <;> rfl

/-- The printed index maps, decided over the 25 points: the left operand's and the result's row blocks are the
    point's own, every column block and the right operand's blocks are block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the two arrays as the region finds them. -/
theorem flushed_eq (c : Dev nD) (t : Fin cfg0.N) :
    (dat0 (F := Ideal) V c).flushed 2 t
      = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x10) hz]
  obtain ⟨e0, e1, e2, e3, e4, e5⟩ := idx_facts t
  funext j
  show k0_pay1 (F := Ideal) (iblk0 V c 0 t) (iblk0 V c 1 t) j
    = prod (V c main_arg0) (V c main_arg1) (((cfg0.win 2).blk t).view.emb j)
  refine blk_at (V c main_arg0) (V c main_arg1) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  · show V c main_arg1 (((cfg0.win 1).blk t).view.emb (ix2 k (j 1))) = V c main_arg1 (ix2 k ((((cfg0.win 2).blk t).view.emb j) 1))
    refine congrArg (V c main_arg1) (funext fun a => Fin.ext ?_)
    match a with
    | ⟨0, _⟩ => show win0_1.index t (0 : Fin 2) * 512 + 1 * k.val = k.val; omega
    | ⟨1, _⟩ => show win0_1.index t (1 : Fin 2) * 10 + 1 * (j 1).val = win0_2.index t (1 : Fin 2) * 10 + 1 * (j 1).val; omega

/-- An index of the result array is in point t's block iff each coordinate is in the block's range on its axis. -/
theorem mem_blk (t : Fin cfg0.N) (i : S100000x10.Idx) :
    i ∈ ((cfg0.win 2).blk t).view.set ↔ ∀ a : Fin 2, win0_2.index t a * S4000x10.size a ≤ (i a).val ∧ (i a).val < win0_2.index t a * S4000x10.size a + S4000x10.size a := by
  show i ∈ ((View.whole main_v26).slice (win0_2.rect t)).set ↔ _
  rw [View.set_slice_whole, Rect.mem_set_unit]
  exact Iff.rfl

/-- Row r of the result is in the block of point r / 4000: the 25 row blocks tile the array. -/
theorem cover (i : S100000x10.Idx) :
    ∃ t : Fin cfg0.N, (cfg0.win 2).flush t = true ∧ i ∈ ((cfg0.win 2).blk t).view.set := by
  have hi0 : (i 0).val < 100000 := idx2_lt0 i
  have hi1 : (i 1).val < 10 := idx2_lt1 i
  obtain ⟨t, ht⟩ : ∃ t : Fin cfg0.N, t.val = (i 0).val / 4000 :=
    ⟨⟨(i 0).val / 4000, by show _ < grid0.N; rw [N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 10 ≤ (i 1).val ∧ (i 1).val < win0_2.index t (1 : Fin 2) * 10 + 10; omega

/-- THE RESULT ARRAY after the region: the product of the two arrays as the region finds them. -/
theorem final (c : Dev nD) :
    (dat0 (F := Ideal) V c).arrAt 2 cfg0.N = prod (V c main_arg0) (V c main_arg1) :=
  (dat0 (F := Ideal) V c).arrAt_eq_of_cover 2 (prod (V c main_arg0) (V c main_arg1))
    (fun t _ => flushed_eq V c t) cover

/-- The left operand's array as the region finds it, at its own shape. -/
abbrev lhs (c : Dev nD) : S100000x512.Idx → EReal := V c main_arg0

/-- The right operand's array as the region finds it, at its own shape. -/
abbrev rhs (c : Dev nD) : S512x10.Idx → EReal := V c main_arg1

/-- Entry (p, q) of the result array after the region: Σ_k x[p, k] · W[k, q]. -/
theorem value (c : Dev nD) (p : Fin 100000) (q : Fin 10) :
    (dat0 (F := Ideal) V c).arrAt 2 cfg0.N (ix2 p q)
      = (∑ k : Fin 512, lhs V c (ix2 p k) * rhs V c (ix2 k q) : EReal) :=
  congrFun (final V c) (ix2 p q)

end Cert.Gcn.Region0

end
-- ==== Proof.KernelEntry.lean ====
/-
  What the second pallas_call of the kernel program finds in its three operands, as functions of the arguments:
  the first call's result is the dense product x · W1 (its row blocks tile the product), the host operations between
  the calls turn it into the hidden layer propagated once more, the weights of the second layer are the argument
  itself and its bias is the argument as a one-row table.
-/
import proofs.«129149_j37495064494211_2_alg».proof.Proof.KernelHost
import proofs.«129149_j37495064494211_2_alg».proof.Proof.Region0Value
import proofs.«129149_j37495064494211_2_alg».proof.Proof.LibDotInnerHost
import Idealize.ShloMosaic.Lib.ValueLayout

noncomputable section

open scoped BigOperators

namespace Cert.Gcn.KernelEntry

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- x · W1 is a plain rows-by-columns product. -/
theorem plainA : Idealize.ShloMosaic.DotInner.Plain Cert.Gcn.dotA :=
  plain_record Cert.Gcn.dotA, Cert.Gcn.S100000x512, Cert.Gcn.S512x10

/-- The first call reads x and W1 as launched. -/
theorem entry_x : V3 m ρ c main_arg0 = m ((c : Thread nD τ).loc main_arg0) := KernelHost.before_keeps_arg0 (W0 m ρ c)
theorem entry_W1 : V3 m ρ c main_arg1 = m ((c : Thread nD τ).loc main_arg1) := KernelHost.before_keeps_arg1 (W0 m ρ c)

/-- After the first call its result array holds x · W1. -/
theorem first_result :
    W4 m ρ c (Proc.devRef .tc main_v26)
      = (Host.dotGeneral (F := Ideal) (φ₁ := .f32) (φ₂ := .f32) Cert.Gcn.dotA none (m ((c : Thread nD τ).loc main_arg0)) (m ((c : Thread nD τ).loc main_arg1))
          : FVec Ideal Cert.Gcn.S100000x10 .f32) := by
  refine (W4_arr m ρ c 2).trans ((Cert.Gcn.Region0.final (V3 m ρ) c).trans ?_)
  rw [entry_x, entry_W1]
  funext j
  obtain ⟨p, q, rfl⟩ : ∃ (p : Fin 100000) (q : Fin 10), j = ix2 p q := ⟨j 0, j 1, eq_ix2 j⟩
  exact (plainA.dotGeneral none _ _ p q).symm

/-- The buffers the host operations between the calls read, at the first call's exit. -/
theorem exit_sources : W4 m ρ c (Proc.devRef .tc main_v1) = (Cert.Gcn.withLoops (m ((c : Thread nD τ).loc main_arg5)) : IVec Cert.Gcn.S3300000 32) :=
  (W4_of_ne m ρ c main_v1 (by decide)).trans (KernelHost.before_sources (W0 m ρ c))
theorem exit_targets : W4 m ρ c (Proc.devRef .tc main_v2) = (Cert.Gcn.withLoops (m ((c : Thread nD τ).loc main_arg6)) : IVec Cert.Gcn.S3300000 32) :=
  (W4_of_ne m ρ c main_v2 (by decide)).trans (KernelHost.before_targets (W0 m ρ c))
theorem exit_weights : W4 m ρ c (Proc.devRef .tc main_v25)
    = (Cert.Gcn.edgeWeight (F := Ideal) (m ((c : Thread nD τ).loc main_arg5)) (m ((c : Thread nD τ).loc main_arg6)) : FVec Ideal Cert.Gcn.S3300000 .f32) :=
  (W4_of_ne m ρ c main_v25 (by decide)).trans (KernelHost.before_weights (W0 m ρ c))
theorem exit_b1 : W4 m ρ c (Proc.devRef .tc main_arg2) = m ((c : Thread nD τ).loc main_arg2) :=
  (W4_of_ne m ρ c main_arg2 (by decide)).trans (KernelHost.before_keeps_arg2 (W0 m ρ c))
theorem exit_W2 : W4 m ρ c (Proc.devRef .tc main_arg3) = m ((c : Thread nD τ).loc main_arg3) :=
  (W4_of_ne m ρ c main_arg3 (by decide)).trans (KernelHost.before_keeps_arg3 (W0 m ρ c))
theorem exit_b2 : W4 m ρ c (Proc.devRef .tc main_arg4) = m ((c : Thread nD τ).loc main_arg4) :=
  (W4_of_ne m ρ c main_arg4 (by decide)).trans (KernelHost.before_keeps_arg4 (W0 m ρ c))

/-- The second call's first operand: the hidden layer, propagated. -/
theorem entry_aggregate :
    V7 m ρ c main_v56
      = (Cert.Gcn.kernelAggregate (F := Ideal) (m ((c : Thread nD τ).loc main_arg5)) (m ((c : Thread nD τ).loc main_arg6))
          (m ((c : Thread nD τ).loc main_arg2))
          (Host.dotGeneral (F := Ideal) (φ₁ := .f32) (φ₂ := .f32) Cert.Gcn.dotA none (m ((c : Thread nD τ).loc main_arg0)) (m ((c : Thread nD τ).loc main_arg1)))
          : FVec Ideal Cert.Gcn.S100000x10 .f32) := by
  refine (KernelHost.between_aggregate (W4 m ρ c) _ _ (exit_sources m ρ c) (exit_targets m ρ c) (exit_weights m ρ c)).trans ?_
  rw [exit_b1, first_result]

/-- Its second operand: the second layer's weights as launched. -/
theorem entry_W2 : V7 m ρ c main_arg3 = m ((c : Thread nD τ).loc main_arg3) :=
  (KernelHost.between_keeps_arg3 (W4 m ρ c)).trans (exit_W2 m ρ c)

/-- Its third operand: the second layer's bias as a one-row table. -/
theorem entry_b2 (q : Fin 41) :
    (V7 m ρ c main_v57 : S1x41.Idx → EReal) (ix2 0 q) = (m ((c : Thread nD τ).loc main_arg4) : S41.Idx → EReal) (ix1 q) := by
  refine (congrFun (KernelHost.between_biasRow (W4 m ρ c)) (ix2 0 q)).trans ?_
  rw [exit_b2]
  exact shapeCast_a_1a_apply _ _ 0 q

end Cert.Gcn.KernelEntry

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.LibSoftmaxRows.lean ====
/-
  Softmax over the rows of a score block, read at an index, on the extended reals.

  For a block of scores s of shape [a, b]:
  * the row maximum — a max-reduction over the columns from the -inf word, kept as a column [a, 1] and broadcast back to
    [a, b] — read at (q, k) is the largest score of row q, folded from the bottom element (`rowTop`);
  * the row sum — an add-reduction from the zero word, kept and broadcast the same way — read at (q, k) is Σ_k' s[q, k'];
  * so exp(s − rowmax) / rowsum(exp(s − rowmax)) at (q, k) is the softmax weight of column k among row q's scores
    (`rowWeight`): the form jnp's `p = exp(s - max); p / sum(p)` takes in a kernel body.
  Beside them, the one law of the extended reals such kernels need when a constant scale is moved across an inner
  product: a nonnegative finite factor distributes over any finite sum, whatever the summands.
-/
import proofs.«129149_j37495064494211_2_alg».proof.Proof.LibRowSum
import proofs.«129149_j37495064494211_2_alg».proof.Proof.LibKeepdimsLayout
import proofs.«129149_j37495064494211_2_alg».proof.Proof.LibBitFolds
import Idealize.ShloMosaic.PureOps.Ideal.Laws
import Idealize.ShloMosaic.Lib.ValueIdx
import Idealize.ShloMosaic.Lib.Pipeline.Value
import Mathlib.Data.EReal.Operations
import Mathlib.Data.Finset.Fold

noncomputable section

open scoped BigOperators

namespace Cert.SoftmaxLib

open Idealize.ShloMosaic Idealize.ShloMosaic.ValueIdx

/-- The largest of finitely many extended reals, from the bottom element. -/
def rowTop {n : ℕ} (s : Fin n → EReal) : EReal := (Finset.univ : Finset (Fin n)).fold max (⊥ : EReal) s

/-- The softmax weight of entry k among s: exp(s_k − top) / Σ_k' exp(s_k' − top). -/
def rowWeight {n : ℕ} (s : Fin n → EReal) (k : Fin n) : EReal :=
  Ideal.div (Ideal.exp (s k - rowTop s)) (∑ k' : Fin n, Ideal.exp (s k' - rowTop s))

/-- A nonnegative finite factor distributes over a finite sum of extended reals; no summand need be finite. -/
theorem sum_mul_const {c : EReal} (h0 : 0 ≤ c) (htop : c ≠ ⊤) {n : ℕ} (t : Fin n → EReal) :
    ∑ e : Fin n, t e * c = (∑ e : Fin n, t e) * c := by
  classical
  refine Finset.induction_on (Finset.univ : Finset (Fin n)) ?_ ?_
  · simp
  · intro a s ha ih
    rw [Finset.sum_insert ha, Finset.sum_insert ha, ih, EReal.right_distrib_of_nonneg_of_ne_top h0 htop]

/-- Scaling the left factors of an inner product by such a constant scales the inner product. -/
theorem scaled_inner {c : EReal} (h0 : 0 ≤ c) (htop : c ≠ ⊤) {n : ℕ} (x y : Fin n → EReal) :
    ∑ e : Fin n, (x e * c) * y e = (∑ e : Fin n, x e * y e) * c := by
  rw [← sum_mul_const h0 htop]
  refine Finset.sum_congr rfl fun e _ => ?_
  rw [mul_assoc, mul_comm c, ← mul_assoc]

variable {a b : ℕ}

/-- The row maximum, kept as a column and broadcast over the row, read at (q, k). -/
theorem rowMax_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) := by
  rw [Cert.LayoutKeepdims.broadcastTo_a1_ab_apply, Cert.LayoutKeepdims.shapeCast_a_a1_apply,
    Ideal.multiReduction_maximumf_single]
  unfold rowTop
  rw [Ideal.ofBits_def, Cert.BitFolds.ofBits_neg_inf_f32]
  refine congrArg (fun f => (Finset.univ : Finset (Fin b)).fold max (⊥ : EReal) f) ?_
  funext k'
  exact congrArg s (Idealize.ShloMosaic.RowSum.lift_row h q k')

/-- The row sum, kept as a column and broadcast over the row, read at (q, k). -/
theorem rowSum_at (s : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .add [1] ⟨1, ![a]⟩ s 0x00000000#32 h hφ hacc) hc) hb (ix2 q k)
      = ∑ k' : Fin b, s (ix2 q k') := by
  rw [Cert.LayoutKeepdims.broadcastTo_a1_ab_apply, Cert.LayoutKeepdims.shapeCast_a_a1_apply,
    Idealize.ShloMosaic.RowSum.rowSum_apply]

/-- Scores minus their row maximum, exponentiated, at (q, k). -/
theorem shifted_exp_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩ (shapeCast ⟨2, ![a, 1]⟩ (multiReduction .maximumf [1] ⟨1, ![a]⟩ s 0xFF800000#32 h hφ hacc) hc) hb)) (ix2 q k)
      = Ideal.exp (s (ix2 q k) - rowTop (fun k' : Fin b => s (ix2 q k'))) := by
  show Ideal.exp (s (ix2 q k) - _) = _
  rw [rowMax_at]

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = rowWeight (fun k' : Fin b => s (ix2 q k')) k := by
  rw [divf_apply, rowSum_at, shifted_exp_at]
  unfold rowWeight
  refine congrArg (Ideal.div _) ?_
  exact Finset.sum_congr rfl fun k' _ => shifted_exp_at s h hφ hacc hc hb q k'

end Cert.SoftmaxLib

end
-- ==== Proof.RowSpec.lean ====
/-
  The two row-wise functions both programs end in, on the extended reals: a dense layer's row
  (an inner product with each column of the weights, plus the bias) and the log-softmax of a row
  (shift by the row's largest entry, then subtract the logarithm of the sum of the exponentials).
-/
import proofs.«129149_j37495064494211_2_alg».proof.Proof.LibSoftmaxRows

noncomputable section

open scoped BigOperators

namespace Cert.Gcn

open Idealize.ShloMosaic Cert.SoftmaxLib

/-- One row of a dense layer: column c of the result is Σ_k a_k · w(k, c) + b_c. -/
def denseRow {d n : ℕ} (a : Fin d → EReal) (w : Fin d → Fin n → EReal) (b : Fin n → EReal) (c : Fin n) : EReal :=
  (∑ k : Fin d, a k * w k c) + b c

/-- The log-softmax of a row z at column c: (z_c − top) − log Σ_c' exp(z_c' − top), top the row's largest entry. -/
def logSoftmaxRow {n : ℕ} (z : Fin n → EReal) (c : Fin n) : EReal :=
  (z c - rowTop z) - Ideal.log (∑ c' : Fin n, Ideal.exp (z c' - rowTop z))

end Cert.Gcn

end
-- ==== Proof.Region1Value.lean ====
/-
  The second region's result array, entry by entry.

  The region takes a [100000, 10] array of activations in 25 blocks of 4000 rows, with the whole [10, 41] weights and the
  whole [1, 41] bias row at every point: it forms the block of scores (rows times weights from a zero accumulator, the
  narrowings to bf16 the identity over the extended reals, plus the bias broadcast over the rows), subtracts each row's
  largest score, and subtracts the logarithm of the row's sum of exponentials. Every step after the product works within
  a row, so row r of the block's result is the log-softmax of the dense layer's row r, a function of that row of the
  activations alone. Every point therefore writes its block of ONE whole-array function, and the 25 row blocks tile the
  result: it ends holding, at (p, q), the log-softmax at column q of Σ_k a[p, k] · W[k, ·] + b, whatever the arrays hold
  when the region is entered.
-/
import proofs.«129149_j37495064494211_2_alg».proof.Proof.Gen.KernelIdeal.Frame
import proofs.«129149_j37495064494211_2_alg».proof.Proof.LibDotInnerHost
import proofs.«129149_j37495064494211_2_alg».proof.Proof.LibSoftmaxRows
import proofs.«129149_j37495064494211_2_alg».proof.Proof.LibRowSum
import proofs.«129149_j37495064494211_2_alg».proof.Proof.LibKeepdimsLayout
import proofs.«129149_j37495064494211_2_alg».proof.Proof.RowSpec
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Gcn.Region1

open Cert.KernelIdeal Cert.KernelIdeal.Gen Cert.SoftmaxLib

/-- The log-softmax of a block of scores as a kernel body forms it — the scores minus their row maximum (a max-reduction
    kept as a column and broadcast back), minus the logarithm of the row sum of the exponentials of that difference
    (an add-reduction kept as a column, the logarithm taken of the column, then broadcast back) — read at (q, k):
    the log-softmax of row q at column k. -/
theorem logSoftmax_at {a b : ℕ} (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    subf (subf s (broadcastTo ⟨2, ![a, b]⟩ (shapeCast ⟨2, ![a, 1]⟩ (multiReduction .maximumf [1] ⟨1, ![a]⟩ s 0xFF800000#32 h hφ hacc) hc) hb))
        (broadcastTo ⟨2, ![a, b]⟩ (log (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc)) hb) (ix2 q k)
      = Cert.Gcn.logSoftmaxRow (fun k' : Fin b => s (ix2 q k')) k := by
  rw [subf_apply, subf_apply, rowMax_at, Cert.LayoutKeepdims.broadcastTo_a1_ab_apply]
  show _ - Ideal.log (shapeCast ⟨2, ![a, 1]⟩ _ hc (ix2 q (0 : Fin 1))) = _
  rw [Cert.LayoutKeepdims.shapeCast_a_a1_apply, Idealize.ShloMosaic.RowSum.rowSum_apply]
  unfold Cert.Gcn.logSoftmaxRow
  refine congrArg (fun z => _ - Ideal.log z) (Finset.sum_congr rfl fun k' _ => ?_)
  exact shifted_exp_at s h hφ hacc hc hb q k'

/-- The record of the product says rows-by-columns. -/
theorem plain1 : DotInner.Plain dot_S4000x10_S10x41_S4000x41_1_0_0_1_n_n :=
  plain_record dot_S4000x10_S10x41_S4000x41_1_0_0_1_n_n, S4000x10, S10x41

/-- The block of scores: the block of rows times the weights (narrowed to bf16, the identity over the extended reals,
    from the zero accumulator), plus the bias row broadcast over the rows. -/
def scores (x0 : Vec Ideal S4000x10 .f32) (x1 : Vec Ideal S10x41 .f32) (x2 : Vec Ideal S1x41 .f32) : FVec Ideal S4000x41 .f32 :=
  addf (matmul dot_S4000x10_S10x41_S4000x41_1_0_0_1_n_n none (truncf .bf16 x0 bitsLt_bf16_f32) (truncf .bf16 x1 bitsLt_bf16_f32)
      (constant S4000x41 .f32 0x00000000#32))
    (broadcastTo S4000x41 x2 broadcasts_S1x41_S4000x41)

/-- The scores at (r, q): the dense layer's row r at column q. -/
theorem scores_at (x0 : Vec Ideal S4000x10 .f32) (x1 : Vec Ideal S10x41 .f32) (x2 : Vec Ideal S1x41 .f32) (r : Fin 4000) (q : Fin 41) :
    scores x0 x1 x2 (ix2 r q)
      = Cert.Gcn.denseRow (fun k : Fin 10 => x0 (ix2 r k)) (fun (k : Fin 10) (c' : Fin 41) => x1 (ix2 k c')) (fun c' : Fin 41 => x2 (ix2 (0 : Fin 1) c')) q := by
  unfold scores Cert.Gcn.denseRow
  rw [addf_apply]
  refine congrArg₂ (· + ·) ?_ ?_
  · exact plain1.matmul_zero none _ _ r q
  · refine broadcastTo_apply x2 broadcasts_S1x41_S4000x41 (ix2 r q) (ix2 (0 : Fin 1) q) fun ax => ?_
    match ax with
    | ⟨0, _⟩ => rfl
    | ⟨1, _⟩ => rfl

/-- The block's payload at (r, q): the log-softmax of the dense layer's row r, at column q. -/
theorem pay1_at (x0 : Vec Ideal S4000x10 .f32) (x1 : Vec Ideal S10x41 .f32) (x2 : Vec Ideal S1x41 .f32) (r : Fin 4000) (q : Fin 41) :
    k1_pay1 (F := Ideal) x0 x1 x2 (ix2 r q)
      = Cert.Gcn.logSoftmaxRow (Cert.Gcn.denseRow (fun k : Fin 10 => x0 (ix2 r k)) (fun (k : Fin 10) (c' : Fin 41) => x1 (ix2 k c'))
          (fun c' : Fin 41 => x2 (ix2 (0 : Fin 1) c'))) q := by
  unfold k1_pay1
  simp only [shapeCast_self]
  refine (logSoftmax_at (scores x0 x1 x2) reduces_S4000x41_S4000 (.inl rfl) rfl (.inl rfl) rfl shapeCasts_S4000_S4000x1
    broadcasts_S4000x1_S4000x41 r q).trans ?_
  exact congrArg (fun z => Cert.Gcn.logSoftmaxRow z q) (funext fun k' => scores_at x0 x1 x2 r k')

variable (V : (c : Dev nD) → (b : Ref sig .tc) → Buf (Elt Ideal) ((c : Thread nD τ).loc b))

/-- The log-softmax of a dense layer, row by row: entry (p, q) is the log-softmax, at column q, of row p of the
    activations against the weights plus the bias row. -/
def rows (A : S100000x10.Idx → EReal) (W : S10x41.Idx → EReal) (B : S1x41.Idx → EReal) : S100000x41.Idx → EReal :=
  fun i => Cert.Gcn.logSoftmaxRow (Cert.Gcn.denseRow (fun k : Fin 10 => A (ix2 (i 0) k)) (fun (k : Fin 10) (c' : Fin 41) => W (ix2 k c'))
    (fun c' : Fin 41 => B (ix2 (0 : Fin 1) c'))) (i 1)

/-- Each row's result depends on that row of the activations alone (and on the whole weights and bias): if row (j 0) of
    the block is row (i 0) of the array, the weights' and the bias's blocks are the arrays, and j and i name the same
    column, the payload at j is the row-wise function at i. -/
theorem blk_at (A : S100000x10.Idx → EReal) (W : S10x41.Idx → EReal) (B : S1x41.Idx → EReal)
    (x0 : Vec Ideal S4000x10 .f32) (x1 : Vec Ideal S10x41 .f32) (x2 : Vec Ideal S1x41 .f32) (j : S4000x41.Idx) (i : S100000x41.Idx)
    (h0 : ∀ k : Fin 10, x0 (ix2 (j 0) k) = A (ix2 (i 0) k))
    (h1 : ∀ (k : Fin 10) (c' : Fin 41), x1 (ix2 k c') = W (ix2 k c'))
    (h2 : ∀ c' : Fin 41, x2 (ix2 (0 : Fin 1) c') = B (ix2 (0 : Fin 1) c'))
    (hq : (j 1).val = (i 1).val) :
    k1_pay1 (F := Ideal) x0 x1 x2 j = rows A W B i := by
  refine ((congrArg (k1_pay1 (F := Ideal) x0 x1 x2) (eq_ix2 j)).trans (pay1_at x0 x1 x2 (j 0) (j 1))).trans ?_
  unfold rows
  have e0 : (fun k : Fin 10 => x0 (ix2 (j 0) k)) = fun k : Fin 10 => A (ix2 (i 0) k) := funext h0
  have e1 : (fun (k : Fin 10) (c' : Fin 41) => x1 (ix2 k c')) = fun (k : Fin 10) (c' : Fin 41) => W (ix2 k c') :=
    funext fun k => funext (h1 k)
  have e2 : (fun c' : Fin 41 => x2 (ix2 (0 : Fin 1) c')) = fun c' : Fin 41 => B (ix2 (0 : Fin 1) c') := funext h2
  rw [e0, e1, e2]
  exact congrArg _ (Fin.ext hq)

theorem hz : (![0, 0] : Fin 2 → Nat) = fun _ => 0 := funext fun a => by fin_cases a <;> rfl

/-- The printed index maps, decided over the 25 points: the activations' and the result's row blocks are the point's
    own, every column block and the weights' and the bias's blocks are block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of the row-wise function of the three arrays as the region finds them. -/
theorem flushed_eq (c : Dev nD) (t : Fin cfg1.N) :
    (dat1 (F := Ideal) V c).flushed 3 t
      = ((cfg1.win 3).blk t).view.read (Elt Ideal) (rows (V c main_v56) (V c main_arg3) (V c main_v57)) := by
  show (cfg1.win 3).cut (grid1.coords t) ((dat1 V c).after 3 t) = _
  rw [after1_3]
  unfold out1_3
  rw [View.canon_unit_zero hz]
  simp only [View.ld_unit_zero (S := S4000x10) hz, View.ld_unit_zero (S := S10x41) hz, View.ld_unit_zero (S := S1x41) hz]
  obtain ⟨e0, e1, e2, e3, e4, e5, e6, e7⟩ := idx_facts t
  funext j
  show k1_pay1 (F := Ideal) (iblk1 V c 0 t) (iblk1 V c 1 t) (iblk1 V c 2 t) j
    = rows (V c main_v56) (V c main_arg3) (V c main_v57) (((cfg1.win 3).blk t).view.emb j)
  refine blk_at (V c main_v56) (V c main_arg3) (V c main_v57) (iblk1 V c 0 t) (iblk1 V c 1 t) (iblk1 V c 2 t) j
    (((cfg1.win 3).blk t).view.emb j) (fun k => ?_) (fun k c' => ?_) (fun c' => ?_) ?_
  · show V c main_v56 (((cfg1.win 0).blk t).view.emb (ix2 (j 0) k)) = V c main_v56 (ix2 ((((cfg1.win 3).blk t).view.emb j) 0) k)
    refine congrArg (V c main_v56) (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 10 + 1 * k.val = k.val; omega
  · show V c main_arg3 (((cfg1.win 1).blk t).view.emb (ix2 k c')) = V c main_arg3 (ix2 k c')
    refine congrArg (V c main_arg3) (funext fun a => Fin.ext ?_)
    match a with
    | ⟨0, _⟩ => show win1_1.index t (0 : Fin 2) * 10 + 1 * k.val = k.val; omega
    | ⟨1, _⟩ => show win1_1.index t (1 : Fin 2) * 41 + 1 * c'.val = c'.val; omega
  · show V c main_v57 (((cfg1.win 2).blk t).view.emb (ix2 (0 : Fin 1) c')) = V c main_v57 (ix2 (0 : Fin 1) c')
    refine congrArg (V c main_v57) (funext fun a => Fin.ext ?_)
    match a with
    | ⟨0, _⟩ => show win1_2.index t (0 : Fin 2) * 1 + 1 * 0 = 0; omega
    | ⟨1, _⟩ => show win1_2.index t (1 : Fin 2) * 41 + 1 * c'.val = c'.val; omega
  · show (j 1).val = win1_3.index t (1 : Fin 2) * 41 + 1 * (j 1).val
    omega

/-- An index of the result array is in point t's block iff each coordinate is in the block's range on its axis. -/
theorem mem_blk (t : Fin cfg1.N) (i : S100000x41.Idx) :
    i ∈ ((cfg1.win 3).blk t).view.set ↔ ∀ a : Fin 2, win1_3.index t a * S4000x41.size a ≤ (i a).val ∧ (i a).val < win1_3.index t a * S4000x41.size a + S4000x41.size a := by
  show i ∈ ((View.whole main_v58).slice (win1_3.rect t)).set ↔ _
  rw [View.set_slice_whole, Rect.mem_set_unit]
  exact Iff.rfl

/-- Row r of the result is in the block of point r / 4000: the 25 row blocks tile the array. -/
theorem cover (i : S100000x41.Idx) :
    ∃ t : Fin cfg1.N, (cfg1.win 3).flush t = true ∧ i ∈ ((cfg1.win 3).blk t).view.set := by
  have hi0 : (i 0).val < 100000 := idx2_lt0 i
  have hi1 : (i 1).val < 41 := idx2_lt1 i
  obtain ⟨t, ht⟩ : ∃ t : Fin cfg1.N, t.val = (i 0).val / 4000 :=
    ⟨⟨(i 0).val / 4000, by show _ < grid1.N; rw [N_1]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 41 ≤ (i 1).val ∧ (i 1).val < win1_3.index t (1 : Fin 2) * 41 + 41; omega

/-- THE RESULT ARRAY after the region: the row-wise function of the three arrays as the region finds them. -/
theorem final (c : Dev nD) :
    (dat1 (F := Ideal) V c).arrAt 3 cfg1.N = rows (V c main_v56) (V c main_arg3) (V c main_v57) :=
  (dat1 (F := Ideal) V c).arrAt_eq_of_cover 3 (rows (V c main_v56) (V c main_arg3) (V c main_v57))
    (fun t _ => flushed_eq V c t) cover

/-- The activations' array as the region finds it, at its own shape. -/
abbrev acts (c : Dev nD) : S100000x10.Idx → EReal := V c main_v56

/-- The weights' array as the region finds it, at its own shape. -/
abbrev weights (c : Dev nD) : S10x41.Idx → EReal := V c main_arg3

/-- The bias row's array as the region finds it, at its own shape. -/
abbrev bias (c : Dev nD) : S1x41.Idx → EReal := V c main_v57

/-- Entry (p, q) of the result array after the region: the log-softmax, at column q, of the dense layer's row p. -/
theorem value (c : Dev nD) (p : Fin 100000) (q : Fin 41) :
    (dat1 (F := Ideal) V c).arrAt 3 cfg1.N (ix2 p q)
      = Cert.Gcn.logSoftmaxRow (Cert.Gcn.denseRow (fun k : Fin 10 => acts V c (ix2 p k)) (fun (k : Fin 10) (c' : Fin 41) => weights V c (ix2 k c'))
          (fun c' : Fin 41 => bias V c (ix2 (0 : Fin 1) c'))) q :=
  congrFun (final V c) (ix2 p q)

end Cert.Gcn.Region1

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.HostSoftmax.lean ====
/-
  The host's row-wise log-softmax read at an entry: the row's largest entry is the fold of max over the row (the
  initial value −∞ is the bottom element, and the extra max with −∞ changes nothing), the sum over the row of the
  exponentials of the shifted entries is a plain finite sum, and the column broadcasts read the row's own value.
-/
import proofs.«129149_j37495064494211_2_alg».proof.Proof.Spec
import proofs.«129149_j37495064494211_2_alg».proof.Proof.RowSpec
import proofs.«129149_j37495064494211_2_alg».proof.Proof.LibMaxMinFold
import Idealize.ShloMosaic.Lib.Pipeline.Value

noncomputable section

open scoped BigOperators

namespace Cert.Gcn.HostSoftmax

open Idealize.ShloMosaic Idealize.ShloMosaic.ValueIdx Cert.Gcn Cert.SoftmaxLib

theorem hred41' : S100000x41.Reduces [1] S100000 := by decide

/-- A value per node kept as a column, read at row p. -/
theorem column_apply {α : Type} (v : S100000.Idx → α) (p : Fin 100000) :
    broadcastInDim S100000x1 ![0] hb_Ncol v (ix2 p 0) = v (ix1 p) :=
  broadcastInDim_apply _ _ _ (ix2 p 0) (ix1 p) (by intro a; obtain rfl : a = 0 := Subsingleton.elim _ _; rfl)

/-- A column broadcast over the 41 entries of every row, read at (p, q). -/
theorem overRow_apply {α : Type} (u : S100000x1.Idx → α) (p : Fin 100000) (q : Fin 41) :
    broadcastInDim S100000x41 ![0, 1] hb_Nrow41 u (ix2 p q) = u (ix2 p 0) :=
  broadcastInDim_apply _ _ _ (ix2 p q) (ix2 p 0) (by intro a; match a with | ⟨0, _⟩ => rfl | ⟨1, _⟩ => rfl)

/-- The entries of row p, as the one-axis reduction enumerates them. -/
theorem row_eq (X : S100000x41.Idx → EReal) (p : Fin 100000) :
    (X ∘ hred41'.lift (ix1 p)) = fun c' : Fin 41 => X (ix2 p c') := by
  funext c'
  refine congrArg X (funext fun a => Fin.ext ?_)
  match a with
  | ⟨0, _⟩ => rfl
  | ⟨1, _⟩ => rfl

/-- The row's largest entry as the host takes it. -/
theorem rowMax_apply (Z : FVec Ideal S100000x41 .f32) (p : Fin 100000) :
    maximumf (broadcastInDim S100000 ![] hb_N (constant (F := Ideal) S_ .f32 0xFF800000#32))
        (Host.reduce (FloatOps.maximumf (F := Ideal) (φ := .f32)) Z (constant (F := Ideal) S_ .f32 0xFF800000#32) hred41 hpos_) (ix1 p)
      = rowTop (fun c' : Fin 41 => Z (ix2 p c')) := by
  rw [maximumf_apply, Cert.MaxMinFold.hostReduce_maximumf_single Z _ hred41 hred41' hpos_ (ix1 p), row_eq]
  show max (Ideal.ofBits .f32 0xFF800000#32) (Finset.univ.fold max (Ideal.ofBits .f32 0xFF800000#32) _) = _
  rw [Cert.BitFolds.ofBits_neg_inf_f32, max_eq_right bot_le]
  rfl

/-- The sum over a row as the host takes it, from the zero initial value. -/
theorem rowSum_apply (X : FVec Ideal S100000x41 .f32) (p : Fin 100000) :
    Host.reduceAdd X (constant (F := Ideal) S_ .f32 0x00000000#32) hred41 hpos_ (ix1 p) = ∑ c' : Fin 41, X (ix2 p c') := by
  show Ideal.hostReduceAdd hred41 X (Ideal.ofBits .f32 0x00000000#32) (ix1 p) = _
  rw [Ideal.hostReduceAdd_single hred41 hred41' X _ (ix1 p), Ideal.ofBits_zero_f32, zero_add]
  refine Finset.sum_congr rfl fun c' _ => congrArg X (funext fun a => Fin.ext ?_)
  match a with
  | ⟨0, _⟩ => rfl
  | ⟨1, _⟩ => rfl

/-- The host's logarithm and exponential act entry by entry. -/
theorem hostLog_apply {s : Shape} (u : FVec Ideal s .f32) (i : s.Idx) : Host.log u i = Ideal.log (u i) := rfl
theorem hostExp_apply {s : Shape} (u : FVec Ideal s .f32) (i : s.Idx) : Host.exp u i = Ideal.exp (u i) := rfl

set_option maxRecDepth 8192 in
/-- The host's log-softmax at (p, q) is the log-softmax of row p at column q. -/
theorem hostLogSoftmax_apply (Z : FVec Ideal S100000x41 .f32) (p : Fin 100000) (q : Fin 41) :
    hostLogSoftmax (F := Ideal) Z (ix2 p q) = logSoftmaxRow (fun c' : Fin 41 => Z (ix2 p c')) q := by
  unfold hostLogSoftmax logSoftmaxRow
  rw [subf_apply, subf_apply, overRow_apply, column_apply, rowMax_apply, overRow_apply]
  rw [hostLog_apply, column_apply, rowSum_apply]
  refine congrArg (fun t => _ - Ideal.log t) (Finset.sum_congr rfl fun c' _ => ?_)
  rw [hostExp_apply, subf_apply, overRow_apply, column_apply, rowMax_apply]

end Cert.Gcn.HostSoftmax

end
-- ==== Proof.LibSegmentSum.lean ====
import Idealize.ShloMosaic.PureOps.Ideal.Laws
import Idealize.ShloMosaic.Lib.ValueIdx

/-!
# Segment sums: scatter-add and gather of rows read at an index, and the linear law

General facts about a "segment sum" (a scatter-add of rows into a table by an integer row index)
and the matching row gather, each read at one index, together with the linear law on the extended
reals that lets a nonnegative finite per-row weight be moved across a product with an arbitrary
vector.
-/

noncomputable section

open scoped BigOperators

namespace Cert.SegmentSum

open Idealize.ShloMosaic Idealize.ShloMosaic.ValueIdx

/-! ## The linear law on the extended reals -/

/-- A finite sum of extended reals times a nonnegative finite factor distributes:
`(∑ k ∈ T, a k) * n = ∑ k ∈ T, a k * n` when `0 ≤ n` and `n ≠ ⊤`
(no sign or finiteness condition on the summands). -/
theorem sum_mul_of_nonneg_of_ne_top {K : Type*} [DecidableEq K] (T : Finset K) (a : K → EReal)
    {n : EReal} (hn : 0 ≤ n) (hn' : n ≠ ⊤) :
    (∑ k ∈ T, a k) * n = ∑ k ∈ T, a k * n := by
  induction T using Finset.induction_on with
  | empty => simp
  | insert k T hk ih =>
    rw [Finset.sum_insert hk, Finset.sum_insert hk,
      EReal.right_distrib_of_nonneg_of_ne_top hn hn', ih]

/-- A finite sum of nonnegative extended reals times an arbitrary factor distributes:
`(∑ e ∈ S, b e) * w = ∑ e ∈ S, b e * w` when every `b e ≥ 0`
(`w` may have any sign and may be infinite). -/
theorem sum_mul_of_nonneg {E : Type*} [DecidableEq E] (S : Finset E) (b : E → EReal)
    (hb : ∀ e ∈ S, 0 ≤ b e) (w : EReal) :
    (∑ e ∈ S, b e) * w = ∑ e ∈ S, b e * w := by
  induction S using Finset.induction_on with
  | empty => simp
  | insert e S he ih =>
    have hS : ∀ e' ∈ S, 0 ≤ b e' := fun e' h' => hb e' (Finset.mem_insert_of_mem h')
    rw [Finset.sum_insert he, Finset.sum_insert he,
      EReal.right_distrib_of_nonneg (hb e (Finset.mem_insert_self e S)) (Finset.sum_nonneg hS),
      ih hS]

/-- The linear law on the extended reals: weighting each row `e` of `h` by a nonnegative
finite factor `n e` commutes with the product against an arbitrary (any sign, possibly
infinite) vector `w`, summed over any set `S` of rows:
`∑ e ∈ S, (∑ k, h e k * w k) * n e = ∑ k, (∑ e ∈ S, h e k * n e) * w k`,
for `h ≥ 0`, `0 ≤ n e ≠ ⊤`. -/
theorem sum_mul_weight_comm {E K : Type*} [DecidableEq E] [Fintype K] [DecidableEq K]
    (S : Finset E) (h : E → K → EReal) (hh : ∀ e k, 0 ≤ h e k)
    (n : E → EReal) (hn : ∀ e, 0 ≤ n e) (hn' : ∀ e, n e ≠ ⊤) (w : K → EReal) :
    ∑ e ∈ S, (∑ k, h e k * w k) * n e = ∑ k, (∑ e ∈ S, h e k * n e) * w k := by
  have h1 : ∀ e ∈ S, (∑ k, h e k * w k) * n e = ∑ k, (h e k * n e) * w k := by
    intro e _
    rw [sum_mul_of_nonneg_of_ne_top Finset.univ _ (hn e) (hn' e)]
    refine Finset.sum_congr rfl fun k _ => ?_
    rw [mul_assoc, mul_comm (w k) (n e), ← mul_assoc]
  rw [Finset.sum_congr rfl h1, Finset.sum_comm]
  refine Finset.sum_congr rfl fun k _ => ?_
  rw [sum_mul_of_nonneg S (fun e => h e k * n e) (fun e _ => EReal.mul_nonneg (hh e k) (hn e)) (w k)]

/-! ## Gather of rows read at an index -/

section Gather
variable {α : Type}

/-- The dimension numbers of a row gather `x[idx]` of a table `[N, D]` at start indices `[E, 1]`, result `[E, D]`:
offset axis `1`, collapsed axis `0`, start index map `[0]`, index vector axis `1`, slice sizes `[1, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at `(e, c)`: the table at row `idx[e, 0]`, read signed and clamped into `[0, N − 1]`,
column `c`. -/
theorem gather_rowsDims_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N E D wf).start (ix2 e c) idx 0 + (rowsDims N E D wf).batchCoord (ix2 e c) 0
      + (rowsDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e c) ⟨List.idxOf (0 : Fin 2) (rowsDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E D wf).start (ix2 e c) idx 1 + (rowsDims N E D wf).batchCoord (ix2 e c) 1
      + (rowsDims N E D wf).offCoord (ix2 e c) 1 = c.val
    rw [GatherDims.batchCoord_eq_zero _ _ _ List.not_mem_nil]
    have hs : (rowsDims N E D wf).start (ix2 e c) idx 1 = 0 := by
      unfold GatherDims.start
      rw [dif_neg (show (1 : Fin 2) ∉ (rowsDims N E D wf).startIndexMap from (by decide : (1 : Fin 2) ∉ ([0] : List (Fin 2))))]
    rw [hs]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

/-- GATHER OF ROWS READ AT AN INDEX, for any record with the row gather's dimension numbers: element `(e, c)` of
`x[idx]` is the table at row `idx[e, 0]`, read signed and clamped into `[0, N − 1]`, column `c`. -/
theorem gather_rows_apply {N E D w : Nat} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (idx : IVec ⟨2, ![E, 1]⟩ w) (e : Fin E) (c : Fin D) :
    Host.gather g x idx (ix2 e c)
      = x (ix2 ⟨min (idx (ix2 e 0)).toInt.toNat (N - 1), by omega⟩ c) := by
  obtain ⟨od, cd, ob, sb, sm, iv, ss, wf⟩ := g
  dsimp only at ho hc hob hsb hm hv hss
  subst ho hc hob hsb hm hv hss
  exact gather_rowsDims_apply hN wf x idx e c

/-- The dimension numbers of a gather `x[idx]` of a flat table `[N]` at start indices `[E, 1]`, result `[E]`:
no offset axis, collapsed axis `0`, start index map `[0]`, index vector axis `1`, slice sizes `[1]`. -/
abbrev tableDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat-table gather read at `e`: the table at `idx[e, 0]`, read signed and clamped into `[0, N − 1]`. -/
theorem gather_tableDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (tableDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (tableDims N E wf).start (ix1 e) idx 0 + (tableDims N E wf).batchCoord (ix1 e) 0
    + (tableDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims N E wf).startIndexMap from List.mem_singleton.mpr rfl)]
  have hsi : (tableDims N E wf).siIdx (ix1 e) ⟨List.idxOf (0 : Fin 1) (tableDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- GATHER FROM A FLAT TABLE READ AT AN INDEX, for any record with those dimension numbers: element `e` of `x[idx]`
is the table at `idx[e, 0]`, read signed and clamped into `[0, N − 1]`. -/
theorem gather_table_apply {N E w : Nat} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (idx : IVec ⟨2, ![E, 1]⟩ w) (e : Fin E) :
    Host.gather g x idx (ix1 e)
      = x (ix1 ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_tableDims_apply hN wf x idx e

end Gather

/-! ## Scatter-add of rows read at an index -/

section Scatter

/-- The row a scatter index word addresses in a table of `N` rows: the word read as a signed integer when that is in
`[0, N)`, no row otherwise (an update whose index leaves the table is dropped). -/
def rowTarget (N : Nat) (w : BitVec 32) : Option (Fin N) :=
  if h : 0 ≤ w.toInt ∧ w.toInt < N then some ⟨w.toInt.toNat, by omega⟩ else none

/-- The dimension numbers of a row scatter into a table `[N, D]` at scatter indices `[E, 1]` with updates `[E, D]`:
update window axis `1`, inserted window axis `0`, scatter-dims-to-operand-dims `[0]`, index vector axis `1`. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D : Nat} (wf : ScatterDims.WF ⟨2, ![N, D]⟩ ⟨2, ![E, 1]⟩ ⟨2, ![E, D]⟩ [1] [0] [0] 1)
  (idx : IVec ⟨2, ![E, 1]⟩ 32) (e : Fin E) (c : Fin D)

/-- On the row axis the window of update `(e, c)` starts at the index word `idx[e, 0]` read signed. -/
theorem rowsScatter_start0 :
    (rowsScatter N E D wf).start (ix2 e c) idx 0 = (idx (ix2 e 0)).toInt := by
  unfold ScatterDims.start
  rw [dif_pos (show (0 : Fin 2) ∈ (rowsScatter N E D wf).scatterDimsToOperandDims from List.mem_singleton.mpr rfl)]
  have hsi : (rowsScatter N E D wf).siIdx (ix2 e c)
      ⟨List.idxOf (0 : Fin 2) (rowsScatter N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowsScatter_start1 : (rowsScatter N E D wf).start (ix2 e c) idx 1 = 0 := by
  unfold ScatterDims.start
  rw [dif_neg (show (1 : Fin 2) ∉ (rowsScatter N E D wf).scatterDimsToOperandDims from
    (by decide : (1 : Fin 2) ∉ ([0] : List (Fin 2))))]

/-- The row axis is inserted: no window coordinate there. -/
theorem rowsScatter_window0 : (rowsScatter N E D wf).window (ix2 e c) 0 = 0 := by
  unfold ScatterDims.window
  rw [dif_neg (show (0 : Fin 2) ∉ (rowsScatter N E D wf).sKept from
    (by decide : (0 : Fin 2) ∉ (List.finRange 2).filter (· ∉ ([0] : List (Fin 2)))))]

/-- The window coordinate on the column axis is the update's column. -/
theorem rowsScatter_window1 : (rowsScatter N E D wf).window (ix2 e c) 1 = c.val := by
  unfold ScatterDims.window
  rw [dif_pos (show (1 : Fin 2) ∈ (rowsScatter N E D wf).sKept from
    (by decide : (1 : Fin 2) ∈ (List.finRange 2).filter (· ∉ ([0] : List (Fin 2)))))]
  rfl

/-- ROW TARGET (literal dimension numbers): update `(e, c)` of a row scatter lands at `(i, c)` where `i` is the row
its index word `idx[e, 0]` addresses, and nowhere when that word leaves `[0, N)`. -/
theorem rowsScatter_resultIdx? :
    (rowsScatter N E D wf).resultIdx? (ix2 e c) idx
      = (rowTarget N (idx (ix2 e 0))).map (fun i => ix2 i c) := by
  have h0s := rowsScatter_start0 wf idx e c
  have h0w := rowsScatter_window0 wf e c
  have h1s := rowsScatter_start1 wf idx e c
  have h1w := rowsScatter_window1 wf e c
  unfold ScatterDims.resultIdx? rowTarget
  by_cases h : 0 ≤ (idx (ix2 e 0)).toInt ∧ (idx (ix2 e 0)).toInt < N
  · have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < ((⟨2, ![N, D]⟩ : Shape).size a : Int) := by
      intro a
      match a with
      | ⟨0, _⟩ =>
        show 0 ≤ (rowsScatter N E D wf).start (ix2 e c) idx 0 + (rowsScatter N E D wf).window (ix2 e c) 0
          ∧ (rowsScatter N E D wf).start (ix2 e c) idx 0 + (rowsScatter N E D wf).window (ix2 e c) 0 < (N : Int)
        rw [h0s, h0w]; omega
      | ⟨1, _⟩ =>
        show 0 ≤ (rowsScatter N E D wf).start (ix2 e c) idx 1 + (rowsScatter N E D wf).window (ix2 e c) 1
          ∧ (rowsScatter N E D wf).start (ix2 e c) idx 1 + (rowsScatter N E D wf).window (ix2 e c) 1 < (D : Int)
        rw [h1s, h1w]; have := c.isLt; omega
    rw [dif_pos hall, dif_pos h, Option.map_some]
    congr 1
    funext a
    refine Fin.ext ?_
    match a with
    | ⟨0, _⟩ =>
      show ((rowsScatter N E D wf).start (ix2 e c) idx 0 + (rowsScatter N E D wf).window (ix2 e c) 0).toNat
        = (idx (ix2 e 0)).toInt.toNat
      rw [h0s, h0w]; simp
    | ⟨1, _⟩ =>
      show ((rowsScatter N E D wf).start (ix2 e c) idx 1 + (rowsScatter N E D wf).window (ix2 e c) 1).toNat = c.val
      rw [h1s, h1w]; simp
  · rw [dif_neg h, dif_neg]
    · rfl
    · intro hall
      have h0 : 0 ≤ (rowsScatter N E D wf).start (ix2 e c) idx 0 + (rowsScatter N E D wf).window (ix2 e c) 0
          ∧ (rowsScatter N E D wf).start (ix2 e c) idx 0 + (rowsScatter N E D wf).window (ix2 e c) 0 < (N : Int) := hall 0
      rw [h0s, h0w] at h0
      exact h (by omega)

/-- ROW TARGET, for any record with the row scatter's dimension numbers: update `(e, c)` lands at `(i, c)` where `i`
is the row its index word `idx[e, 0]` addresses, and nowhere when that word leaves `[0, N)`. -/
theorem resultIdx?_rows (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) :
    d.resultIdx? (ix2 e c) idx = (rowTarget N (idx (ix2 e 0))).map (fun i => ix2 i c) := by
  obtain ⟨uw, iw, sd, iv, wf'⟩ := d
  dsimp only at hu hi hs hv
  subst hu hi hs hv
  exact rowsScatter_resultIdx? wf' idx e c

/-- Two rank-2 indices agree exactly when both coordinates do. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- SCATTER-ADD OF ROWS READ AT AN INDEX (on the extended reals): element `(i, c)` of the result is the operand's plus
the sum of column `c` of every update row `e` whose index word addresses row `i`. -/
theorem hostScatterAdd_rows_apply (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (upd : (⟨2, ![E, D]⟩ : Shape).Idx → EReal) (i : Fin N) :
    Ideal.hostScatterAdd d x idx upd (ix2 i c)
      = x (ix2 i c) + ∑ e ∈ Finset.univ.filter (fun e : Fin E => rowTarget N (idx (ix2 e 0)) = some i),
          upd (ix2 e c) := by
  unfold Ideal.hostScatterAdd
  congr 1
  rw [Finset.sum_filter, Finset.sum_filter, sum_idx2]
  refine Finset.sum_congr rfl fun e _ => ?_
  simp only [resultIdx?_rows idx e _ d hu hi hs hv]
  cases hr : rowTarget N (idx (ix2 e 0)) with
  | none => simp
  | some i' =>
    simp only [Option.map_some, Option.some.injEq, ix2_eq_ix2_iff]
    by_cases hii : i' = i
    · subst hii
      simp
    · simp [hii]

end Scatter

/-! ## Scatter-add into a flat table read at an index -/

section ScatterTable

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-1 indices agree exactly when their coordinates do. -/
theorem ix1_eq_ix1_iff {n : Nat} (a a' : Fin n) : ix1 a = ix1 a' ↔ a = a' := by
  constructor
  · intro h
    exact congrFun h 0
  · rintro rfl; rfl

/-- The dimension numbers of a scatter into a flat table `[N]` at scatter indices `[E, 1]` with updates `[E]`:
no update window axis, inserted window axis `0`, scatter-dims-to-operand-dims `[0]`, index vector axis `1`. -/
abbrev tableScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (e : Fin E)

/-- The window of update `e` starts at the index word `idx[e, 0]` read signed. -/
theorem tableScatter_start0 :
    (tableScatter N E wf).start (ix1 e) idx 0 = (idx (ix2 e 0)).toInt := by
  unfold ScatterDims.start
  rw [dif_pos (show (0 : Fin 1) ∈ (tableScatter N E wf).scatterDimsToOperandDims from List.mem_singleton.mpr rfl)]
  have hsi : (tableScatter N E wf).siIdx (ix1 e)
      ⟨List.idxOf (0 : Fin 1) (tableScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The table's one axis is inserted: no window coordinate there. -/
theorem tableScatter_window0 : (tableScatter N E wf).window (ix1 e) 0 = 0 := by
  unfold ScatterDims.window
  rw [dif_neg (show (0 : Fin 1) ∉ (tableScatter N E wf).sKept from
    (by decide : (0 : Fin 1) ∉ (List.finRange 1).filter (· ∉ ([0] : List (Fin 1)))))]

/-- TARGET (literal dimension numbers): update `e` of a flat-table scatter lands at the entry its index word
`idx[e, 0]` addresses, and nowhere when that word leaves `[0, N)`. -/
theorem tableScatter_resultIdx? :
    (tableScatter N E wf).resultIdx? (ix1 e) idx = (rowTarget N (idx (ix2 e 0))).map (fun i => ix1 i) := by
  have h0s := tableScatter_start0 wf idx e
  have h0w := tableScatter_window0 wf e
  unfold ScatterDims.resultIdx? rowTarget
  by_cases h : 0 ≤ (idx (ix2 e 0)).toInt ∧ (idx (ix2 e 0)).toInt < N
  · have hall : ∀ a : Fin 1, 0 ≤ (tableScatter N E wf).start (ix1 e) idx a + (tableScatter N E wf).window (ix1 e) a
        ∧ (tableScatter N E wf).start (ix1 e) idx a + (tableScatter N E wf).window (ix1 e) a
          < ((⟨1, ![N]⟩ : Shape).size a : Int) := by
      intro a
      obtain rfl : a = 0 := Subsingleton.elim _ _
      show 0 ≤ (tableScatter N E wf).start (ix1 e) idx 0 + (tableScatter N E wf).window (ix1 e) 0
        ∧ (tableScatter N E wf).start (ix1 e) idx 0 + (tableScatter N E wf).window (ix1 e) 0 < (N : Int)
      rw [h0s, h0w]; omega
    rw [dif_pos hall, dif_pos h, Option.map_some]
    congr 1
    funext a
    obtain rfl : a = 0 := Subsingleton.elim _ _
    refine Fin.ext ?_
    show ((tableScatter N E wf).start (ix1 e) idx 0 + (tableScatter N E wf).window (ix1 e) 0).toNat
      = (idx (ix2 e 0)).toInt.toNat
    rw [h0s, h0w]; simp
  · rw [dif_neg h, dif_neg]
    · rfl
    · intro hall
      have h0 : 0 ≤ (tableScatter N E wf).start (ix1 e) idx 0 + (tableScatter N E wf).window (ix1 e) 0
          ∧ (tableScatter N E wf).start (ix1 e) idx 0 + (tableScatter N E wf).window (ix1 e) 0 < (N : Int) := hall 0
      rw [h0s, h0w] at h0
      exact h (by omega)

/-- TARGET, for any record with the flat-table scatter's dimension numbers. -/
theorem resultIdx?_table (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) :
    d.resultIdx? (ix1 e) idx = (rowTarget N (idx (ix2 e 0))).map (fun i => ix1 i) := by
  obtain ⟨uw, iw, sd, iv, wf'⟩ := d
  dsimp only at hu hi hs hv
  subst hu hi hs hv
  exact tableScatter_resultIdx? wf' idx e

/-- SCATTER-ADD INTO A FLAT TABLE READ AT AN INDEX (on the extended reals): entry `i` of the result is the operand's
plus the sum of every update `e` whose index word addresses `i`. -/
theorem hostScatterAdd_table_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (upd : (⟨1, ![E]⟩ : Shape).Idx → EReal) (i : Fin N) :
    Ideal.hostScatterAdd d x idx upd (ix1 i)
      = x (ix1 i) + ∑ e ∈ Finset.univ.filter (fun e : Fin E => rowTarget N (idx (ix2 e 0)) = some i),
          upd (ix1 e) := by
  unfold Ideal.hostScatterAdd
  congr 1
  rw [Finset.sum_filter, Finset.sum_filter, sum_idx1]
  refine Finset.sum_congr rfl fun e _ => ?_
  rw [resultIdx?_table idx e d hu hi hs hv]
  cases hr : rowTarget N (idx (ix2 e 0)) with
  | none => simp
  | some i' => simp only [Option.map_some, Option.some.injEq, ix1_eq_ix1_iff]

end ScatterTable

end Cert.SegmentSum

end
-- ==== Proof.PropagateLaw.lean ====
import proofs.«129149_j37495064494211_2_alg».proof.Proof.Spec
import proofs.«129149_j37495064494211_2_alg».proof.Proof.LibSegmentSum
import proofs.«129149_j37495064494211_2_alg».proof.Proof.LibDotInnerHost

/-!
# The propagation step commutes with a dense layer

One propagation step sends a table `H` of rows to the table whose row `i` is the sum, over the edges `e` into `i`, of
`weight e · H[source e]`. Every weight is a product of two values `deg^(-1/2)` (or `0`), so it is nonnegative and
finite; over the extended reals that is what lets the weights be moved across a product with an arbitrary matrix:
for `H ≥ 0`, propagating `H · W` is propagating `H` and then multiplying by `W`.
-/

noncomputable section

open scoped BigOperators

namespace Cert.Gcn.Law

open Idealize.ShloMosaic Idealize.ShloMosaic.ValueIdx Cert.Gcn Cert.SegmentSum

/-! ## Broadcasts read at an index -/

section Broadcast
variable {α : Type}

/-- A vector broadcast to a column reads, at `(e, _)`, its entry `e`. -/
theorem bcast_col_apply {n : Nat} (h : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] h v j = v (ix1 (j 0)) := by
  unfold broadcastInDim
  congr 1
  funext a
  obtain rfl : a = 0 := Subsingleton.elim _ _
  refine Fin.ext ?_
  split
  · rename_i h1
    have h1' : n = 1 := h1
    have := idx2_lt0 j
    show 0 = (j 0).val
    omega
  · rfl

/-- A column broadcast along the rows reads, at `(e, k)`, its entry `(e, 0)`. -/
theorem bcast_rows_apply {n m : Nat} (h : (⟨2, ![n, 1]⟩ : Shape).BroadcastsInDim ⟨2, ![n, m]⟩ ![0, 1])
    (y : (⟨2, ![n, 1]⟩ : Shape).Idx → α) (e : Fin n) (k : Fin m) :
    broadcastInDim ⟨2, ![n, m]⟩ ![0, 1] h y (ix2 e k) = y (ix2 e 0) := by
  unfold broadcastInDim
  congr 1
  funext a
  refine Fin.ext ?_
  match a with
  | ⟨0, _⟩ =>
    split
    · rename_i h1
      have h1' : n = 1 := h1
      have := e.isLt
      show 0 = e.val
      omega
    · rfl
  | ⟨1, _⟩ =>
    split
    · rfl
    · rename_i h1
      exact absurd rfl h1

end Broadcast

/-! ## The weights are nonnegative and finite -/

/-- `x^(-1/2)` where `x > 0`, `0` elsewhere, is nonnegative and finite on the extended reals
(at `x = ⊤` it is `0`; the pole at `x = 0` is excluded by the comparison). -/
theorem select_rsqrt_nonneg_ne_top (d : EReal) :
    0 ≤ Scalar.select (Ideal.cmp .ogt d 0) (Ideal.rsqrt d) 0
      ∧ Scalar.select (Ideal.cmp .ogt d 0) (Ideal.rsqrt d) 0 ≠ ⊤ := by
  by_cases hd : (0 : EReal) < d
  · have hc : Ideal.cmp .ogt d 0 = 1#1 := by
      simp [Ideal.cmp, hd]
    rw [hc, select_one]
    induction d using EReal.rec with
    | bot => exact absurd hd (by simp)
    | top => simp
    | coe r =>
      have hr : 0 < r := by exact_mod_cast hd
      rw [Ideal.rsqrt_coe, if_neg (not_lt.mpr hr.le), if_neg hr.ne']
      refine ⟨?_, EReal.coe_ne_top _⟩
      exact_mod_cast inv_nonneg.mpr (Real.sqrt_nonneg r)
  · have hc : Ideal.cmp .ogt d 0 = 0#1 := by
      simp [Ideal.cmp, hd]
    rw [hc, select_zero]
    exact ⟨le_refl _, EReal.zero_ne_top⟩

/-- The zero table reads `0` everywhere. -/
theorem zero_table_apply {t : Shape} (dims : Fin S_.rank → Fin t.rank) (h : S_.BroadcastsInDim t dims) (j : t.Idx) :
    broadcastInDim t dims h (constant (F := Ideal) S_ .f32 0x00000000#32) j = (0 : EReal) := by
  unfold broadcastInDim
  rw [constant_apply]
  exact Ideal.ofBits_zero_f32

/-- `x^(-1/2)` where `x > 0`, `0` elsewhere, entry by entry of any table `dg`, is nonnegative and finite. -/
theorem invSqrt_nonneg_ne_top (dg : FVec Ideal S100000 .f32) (j : S100000.Idx) :
    0 ≤ select (cmpf .ogt dg (broadcastInDim S100000 ![] hb_N (constant S_ .f32 0x00000000#32)))
        (Host.rsqrt dg) (broadcastInDim S100000 ![] hb_N (id (constant S_ .f32 0x00000000#32))) j
      ∧ select (cmpf .ogt dg (broadcastInDim S100000 ![] hb_N (constant S_ .f32 0x00000000#32)))
        (Host.rsqrt dg) (broadcastInDim S100000 ![] hb_N (id (constant S_ .f32 0x00000000#32))) j ≠ ⊤ := by
  simp only [id_eq]
  rw [select_apply, cmpf_apply, Ideal.cmpf_def, zero_table_apply]
  unfold Host.rsqrt
  rw [Ideal.hostUnary_rsqrt_def]
  exact select_rsqrt_nonneg_ne_top (dg j)

/-- Every entry of the table `deg^(-1/2)` is nonnegative and finite. -/
theorem invSqrtDeg_nonneg_ne_top (a6 : IVec S3200000 32) (j : S100000.Idx) :
    0 ≤ invSqrtDeg (F := Ideal) a6 j ∧ invSqrtDeg (F := Ideal) a6 j ≠ ⊤ :=
  invSqrt_nonneg_ne_top (degree (F := Ideal) a6) j

/-- The product of two nonnegative finite extended reals is nonnegative and finite. -/
theorem mul_nonneg_ne_top {a b : EReal} (ha : 0 ≤ a) (ha' : a ≠ ⊤) (hb : 0 ≤ b) (hb' : b ≠ ⊤) :
    0 ≤ a * b ∧ a * b ≠ ⊤ := by
  refine ⟨EReal.mul_nonneg ha hb, ?_⟩
  lift a to ℝ using ⟨ha', ne_bot_of_le_ne_bot EReal.zero_ne_bot ha⟩
  lift b to ℝ using ⟨hb', ne_bot_of_le_ne_bot EReal.zero_ne_bot hb⟩
  rw [← EReal.coe_mul]
  exact EReal.coe_ne_top _

/-- Every edge weight is nonnegative and finite: it is a product of two entries of `deg^(-1/2)`. -/
theorem edgeWeight_nonneg_ne_top (a5 a6 : IVec S3200000 32) (e : Fin 3300000) :
    0 ≤ edgeWeight (F := Ideal) a5 a6 (ix1 e) ∧ edgeWeight (F := Ideal) a5 a6 (ix1 e) ≠ ⊤ := by
  unfold edgeWeight
  rw [mulf_apply,
    gather_table_apply (by decide : 0 < 100000) gath1 rfl rfl rfl rfl rfl rfl rfl,
    gather_table_apply (by decide : 0 < 100000) gath1 rfl rfl rfl rfl rfl rfl rfl]
  obtain ⟨h1, h1'⟩ := invSqrtDeg_nonneg_ne_top a6
    (ix1 ⟨min ((wrapped (withLoops a5)) (ix2 e 0)).toInt.toNat (100000 - 1), by omega⟩)
  obtain ⟨h2, h2'⟩ := invSqrtDeg_nonneg_ne_top a6
    (ix1 ⟨min ((wrapped (withLoops a6)) (ix2 e 0)).toInt.toNat (100000 - 1), by omega⟩)
  exact mul_nonneg_ne_top h1 h1' h2 h2'

/-- A SCATTER-ADD OF WEIGHTED GATHERED ROWS INTO THE ZERO TABLE, READ AT AN INDEX: with `dst` and `from` the columns of
target and source row numbers, `w` one weight per update row, entry `(i, k)` of the result is the sum, over the update
rows `e` whose target is `i`, of `H[source e, k] · w e` (the source read signed and clamped into the table). -/
theorem scatter_gather_rows_apply {N E D : Nat} (hN : 0 < N)
    (sc : ScatterDims ⟨2, ![N, D]⟩ ⟨2, ![E, 1]⟩ ⟨2, ![E, D]⟩)
    (hu : sc.updateWindowDims = [1]) (hi : sc.insertedWindowDims = [0]) (hs : sc.scatterDimsToOperandDims = [0])
    (hv : sc.indexVectorDim = 1)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hgv : g.indexVectorDim = 1)
    (hss : g.sliceSizes = ![1, D])
    (hbz : S_.BroadcastsInDim ⟨2, ![N, D]⟩ (![] : Fin 0 → Fin 2))
    (hb1 : (⟨1, ![E]⟩ : Shape).BroadcastsInDim ⟨2, ![E, 1]⟩ ![0])
    (hb2 : (⟨2, ![E, 1]⟩ : Shape).BroadcastsInDim ⟨2, ![E, D]⟩ ![0, 1])
    (dst from_ : IVec ⟨2, ![E, 1]⟩ 32) (H : FVec Ideal ⟨2, ![N, D]⟩ .f32) (w : FVec Ideal ⟨1, ![E]⟩ .f32)
    (i : Fin N) (k : Fin D) :
    Host.scatterAdd sc (broadcastInDim ⟨2, ![N, D]⟩ ![] hbz (constant S_ .f32 0x00000000#32)) dst
        (mulf (Host.gather g H from_)
          (broadcastInDim ⟨2, ![E, D]⟩ ![0, 1] hb2 (broadcastInDim ⟨2, ![E, 1]⟩ ![0] hb1 w))) (ix2 i k)
      = ∑ e ∈ Finset.univ.filter (fun e : Fin E => rowTarget N (dst (ix2 e 0)) = some i),
          H (ix2 ⟨min (from_ (ix2 e 0)).toInt.toNat (N - 1), by omega⟩ k) * w (ix1 e) := by
  unfold Host.scatterAdd
  rw [Ideal.hostScatterAdd_def, hostScatterAdd_rows_apply _ _ sc hu hi hs hv, zero_table_apply, zero_add]
  refine Finset.sum_congr rfl fun e _ => ?_
  rw [mulf_apply, gather_rows_apply hN g ho hc hob hsb hm hgv hss, bcast_rows_apply, bcast_col_apply]
  rfl

/-! ## One propagation step read at an index -/

/-- The source node of edge `e`: the first end's node number (a negative one counted from the end), read signed and
clamped into the table. -/
def src (a5 : IVec S3200000 32) (e : Fin 3300000) : Fin 100000 :=
  ⟨min ((wrapped (withLoops a5)) (ix2 e 0)).toInt.toNat (100000 - 1), by omega⟩

/-- The edges into node `i`: those whose second end's node number, read signed, is `i`. -/
def into (a6 : IVec S3200000 32) (i : Fin 100000) : Finset (Fin 3300000) :=
  Finset.univ.filter (fun e => rowTarget 100000 (col (withLoops a6) (ix2 e 0)) = some i)

/-- PROPAGATION OF ROWS OF WIDTH 10 AT AN INDEX: entry `(i, k)` is the sum over the edges `e` into `i` of
`H[source e, k] · weight e`. -/
theorem propagate10_apply (a5 a6 : IVec S3200000 32) (H : FVec Ideal S100000x10 .f32) (i : Fin 100000) (k : Fin 10) :
    propagate10 (F := Ideal) a5 a6 H (ix2 i k)
      = ∑ e ∈ into a6 i, H (ix2 (src a5 e) k) * edgeWeight (F := Ideal) a5 a6 (ix1 e) :=
  scatter_gather_rows_apply (by decide : 0 < 100000) scat10 rfl rfl rfl rfl gath10 rfl rfl rfl rfl rfl rfl rfl
    hb_N10 hb_col hb_E10 (col (withLoops a6)) (wrapped (withLoops a5)) H (edgeWeight (F := Ideal) a5 a6) i k

/-- PROPAGATION OF ROWS OF WIDTH 41 AT AN INDEX: entry `(i, c)` is the sum over the edges `e` into `i` of
`Z[source e, c] · weight e`. -/
theorem propagate41_apply (a5 a6 : IVec S3200000 32) (Z : FVec Ideal S100000x41 .f32) (i : Fin 100000) (c : Fin 41) :
    propagate41 (F := Ideal) a5 a6 Z (ix2 i c)
      = ∑ e ∈ into a6 i, Z (ix2 (src a5 e) c) * edgeWeight (F := Ideal) a5 a6 (ix1 e) :=
  scatter_gather_rows_apply (by decide : 0 < 100000) scat41 rfl rfl rfl rfl gath41 rfl rfl rfl rfl rfl rfl rfl
    hb_N41 hb_col hb_E41 (col (withLoops a6)) (wrapped (withLoops a5)) Z (edgeWeight (F := Ideal) a5 a6) i c

/-! ## The law -/

/-- The second dense layer's dimension numbers say rows by columns. -/
theorem plain_dotB : DotInner.Plain dotB := plain_record dotB, S100000x10, S10x41

/-- THE LAW: for a nonnegative table `H`, propagating `H · W2` is propagating `H` and then multiplying by `W2`
(entries of `W2` of any sign, possibly infinite). -/
theorem propagate_dense (a5 a6 : IVec S3200000 32) (H : FVec Ideal S100000x10 .f32) (hH : ∀ j, 0 ≤ H j)
    (W2 : FVec Ideal S10x41 .f32) (p : Fin 100000) (c : Fin 41) :
    propagate41 (F := Ideal) a5 a6 (Host.dotGeneral dotB none H W2) (ix2 p c)
      = ∑ k : Fin 10, propagate10 (F := Ideal) a5 a6 H (ix2 p k) * W2 (ix2 k c) := by
  rw [propagate41_apply]
  simp only [propagate10_apply, plain_dotB.dotGeneral]
  exact sum_mul_weight_comm (into a6 p) (fun e k => H (ix2 (src a5 e) k)) (fun e k => hH _)
    (fun e => edgeWeight (F := Ideal) a5 a6 (ix1 e)) (fun e => (edgeWeight_nonneg_ne_top a5 a6 e).1)
    (fun e => (edgeWeight_nonneg_ne_top a5 a6 e).2) (fun k => W2 (ix2 k c))

/-! ## The hidden layer is nonnegative -/

/-- Every entry of the hidden layer is nonnegative: it is a maximum with `0`. -/
theorem hidden_nonneg (a5 a6 : IVec S3200000 32) (b1 : FVec Ideal S10 .f32) (P : FVec Ideal S100000x10 .f32) :
    ∀ j, 0 ≤ hidden (F := Ideal) a5 a6 b1 P j := by
  intro j
  unfold hidden
  rw [maximumf_apply, zero_table_apply]
  exact le_max_right _ _

end Cert.Gcn.Law

end
-- ==== Proof.RefValue.lean ====
/-
  The reference's result read at an entry: the log-softmax of a dense row. Its second layer multiplies the hidden
  table by W2 and then propagates; since the hidden entries and the edge weights are nonnegative and the weights
  finite, that is the propagated hidden table multiplied by W2, entry by entry — the form the kernel program computes.
-/
import proofs.«129149_j37495064494211_2_alg».proof.Proof.Spec
import proofs.«129149_j37495064494211_2_alg».proof.Proof.RowSpec
import proofs.«129149_j37495064494211_2_alg».proof.Proof.HostSoftmax
import proofs.«129149_j37495064494211_2_alg».proof.Proof.PropagateLaw
import Idealize.ShloMosaic.Lib.Pipeline.Value

noncomputable section

open scoped BigOperators

namespace Cert.Gcn.RefValue

open Idealize.ShloMosaic Idealize.ShloMosaic.ValueIdx Cert.Gcn Cert.SoftmaxLib

/-- The bias of the second layer, kept as a one-row table and broadcast over the rows, read at (p, q). -/
theorem bias_apply (b2 : FVec Ideal S41 .f32) (p : Fin 100000) (q : Fin 41) :
    broadcastInDim S100000x41 ![0, 1] hb_b2 (broadcastInDim S1x41 ![1] hb_b2row b2) (ix2 p q) = b2 (ix1 q) := by
  rw [broadcastInDim_apply _ _ _ (ix2 p q) (ix2 0 q) (by intro a; match a with | ⟨0, _⟩ => rfl | ⟨1, _⟩ => rfl),
    broadcastInDim_apply _ _ _ (ix2 0 q) (ix1 q) (by intro a; obtain rfl : a = 0 := Subsingleton.elim _ _; rfl)]

/-- The reference's result at (p, q). -/
theorem referenceResult_apply (x : FVec Ideal S100000x512 .f32) (W1 : FVec Ideal S512x10 .f32) (b1 : FVec Ideal S10 .f32)
    (W2 : FVec Ideal S10x41 .f32) (b2 : FVec Ideal S41 .f32) (a5 a6 : IVec S3200000 32) (p : Fin 100000) (q : Fin 41) :
    referenceResult (F := Ideal) x W1 b1 W2 b2 a5 a6 (ix2 p q)
      = logSoftmaxRow (denseRow (fun k : Fin 10 => kernelAggregate (F := Ideal) a5 a6 b1 (Host.dotGeneral dotA none x W1) (ix2 p k))
          (fun k c' => W2 (ix2 k c')) (fun c' : Fin 41 => b2 (ix1 c'))) q := by
  unfold referenceResult
  rw [HostSoftmax.hostLogSoftmax_apply]
  refine congrArg (fun z => logSoftmaxRow z q) (funext fun c' => ?_)
  rw [addf_apply, bias_apply, Law.propagate_dense a5 a6 _ (Law.hidden_nonneg a5 a6 b1 _) W2 p c']
  rfl

end Cert.Gcn.RefValue

end
-- ==== Proof.KernelValue.lean ====
/-
  The kernel program's result as a function of the arguments: the second call's output array is, row by row, the
  log-softmax of the dense layer applied to the propagated hidden table — entry by entry the reference's result.
-/
import proofs.«129149_j37495064494211_2_alg».proof.Proof.KernelEntry
import proofs.«129149_j37495064494211_2_alg».proof.Proof.Region1Value
import proofs.«129149_j37495064494211_2_alg».proof.Proof.RefValue

noncomputable section

open scoped BigOperators

namespace Cert.Gcn.KernelValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The result array at (p, q): the log-softmax, at column q, of row p of the dense layer over the propagated hidden table. -/
theorem result_apply (p : Fin 100000) (q : Fin 41) :
    (dat1 (F := Ideal) (V7 m ρ) c).arrAt 3 cfg1.N (ix2 p q)
      = Cert.Gcn.logSoftmaxRow (Cert.Gcn.denseRow
          (fun k : Fin 10 => Cert.Gcn.kernelAggregate (F := Ideal) (m ((c : Thread nD τ).loc main_arg5)) (m ((c : Thread nD τ).loc main_arg6))
            (m ((c : Thread nD τ).loc main_arg2))
            (Host.dotGeneral (F := Ideal) (φ₁ := .f32) (φ₂ := .f32) Cert.Gcn.dotA none (m ((c : Thread nD τ).loc main_arg0)) (m ((c : Thread nD τ).loc main_arg1))) (ix2 p k))
          (fun (k : Fin 10) (c' : Fin 41) => (m ((c : Thread nD τ).loc main_arg3) : Cert.Gcn.S10x41.Idx → EReal) (ix2 k c'))
          (fun c' : Fin 41 => (m ((c : Thread nD τ).loc main_arg4) : Cert.Gcn.S41.Idx → EReal) (ix1 c'))) q := by
  refine (Cert.Gcn.Region1.value (V7 m ρ) c p q).trans ?_
  have e1 : Cert.Gcn.Region1.acts (V7 m ρ) c = _ := KernelEntry.entry_aggregate m ρ c
  have e2 : Cert.Gcn.Region1.weights (V7 m ρ) c = _ := KernelEntry.entry_W2 m ρ c
  have e3 : (fun c' : Fin 41 => Cert.Gcn.Region1.bias (V7 m ρ) c (ix2 (0 : Fin 1) c'))
      = fun c' : Fin 41 => (m ((c : Thread nD τ).loc main_arg4) : Cert.Gcn.S41.Idx → EReal) (ix1 c') :=
    funext (KernelEntry.entry_b2 m ρ c)
  rw [e1, e2, e3]

/-- The last boundary of the kernel program's run holds, at the result buffer, the reference's result of the arguments. -/
theorem result_eq :
    W8 m ρ c (Proc.devRef .tc main_v58)
      = (Cert.Gcn.referenceResult (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) : FVec Ideal Cert.Gcn.S100000x41 .f32) := by
  refine (W8_arr m ρ c 3).trans ?_
  funext j
  obtain ⟨p, q, rfl⟩ : ∃ (p : Fin 100000) (q : Fin 41), j = ix2 p q := ⟨j 0, j 1, eq_ix2 j⟩
  exact (result_apply m ρ c p q).trans (Cert.Gcn.RefValue.referenceResult_apply _ _ _ _ _ _ _ p q).symm

end Cert.Gcn.KernelValue

end
-- ==== Proof.lean ====
/-
  A two-layer graph convolution followed by a row-wise log-softmax, computed two ways. Both programs build the same
  normalised edge weights and the same hidden layer relu(propagate(x · W1) + b1) — the kernel program takes x · W1 in a
  pallas_call over row blocks, the reference as one host product; on the extended reals both are the same sums. In the
  second layer the reference multiplies the hidden table by W2 and propagates the 41-wide rows, while the kernel program
  propagates the 10-wide hidden rows and multiplies by W2 inside its second pallas_call, which also adds the bias and
  takes the log-softmax. Propagation is a weighted sum over edges with nonnegative finite weights of nonnegative hidden
  entries, so it commutes with the product by W2 on the extended reals with no finiteness asked of the inputs.
  The three frames are the generated ones (the reference's is its run with the result dropped); the idealization
  rewrote nothing, so there is nothing to preserve beyond the text itself.
-/
import proofs.«129149_j37495064494211_2_alg».proof.Defs
import proofs.«129149_j37495064494211_2_alg».proof.Proof.Gen.Kernel
import proofs.«129149_j37495064494211_2_alg».proof.Proof.Gen.Kernel.Skeleton
import proofs.«129149_j37495064494211_2_alg».proof.Proof.Gen.Kernel.Launch
import proofs.«129149_j37495064494211_2_alg».proof.Proof.Gen.Kernel.Points
import proofs.«129149_j37495064494211_2_alg».proof.Proof.Gen.Kernel.Frame
import proofs.«129149_j37495064494211_2_alg».proof.Proof.Gen.KernelIdeal
import proofs.«129149_j37495064494211_2_alg».proof.Proof.Gen.KernelIdeal.Skeleton
import proofs.«129149_j37495064494211_2_alg».proof.Proof.Gen.KernelIdeal.Launch
import proofs.«129149_j37495064494211_2_alg».proof.Proof.Gen.KernelIdeal.Points
import proofs.«129149_j37495064494211_2_alg».proof.Proof.Gen.KernelIdeal.Frame
import proofs.«129149_j37495064494211_2_alg».proof.Proof.Gen.ReferenceIdeal
import proofs.«129149_j37495064494211_2_alg».proof.Proof.Gen.Pre_finite_inputs
import proofs.«129149_j37495064494211_2_alg».proof.Proof.RefRun
import proofs.«129149_j37495064494211_2_alg».proof.Proof.KernelRun
import proofs.«129149_j37495064494211_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Gcn.RefRun.run (F := Ideal) m ρ)

/-- Both idealized programs end, from memories agreeing on the arguments, with the reference's result of the arguments. -/
theorem algebraic : Cert.algebraic_KernelIdeal_ReferenceIdeal := by
  intro m ρ m' ρ' _ hagree
  refine ⟨fun c => Cert.Gcn.referenceResult (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.KernelValue.result_eq m ρ c), (h c).2⟩)
      (Cert.Gcn.KernelRun.run_result (F := Ideal) m ρ)
  · refine (θ_run Cert.ReferenceIdeal.defs _ _).mono (fun _ h c => ⟨(h c).1.trans ?_, (h c).2⟩)
      (Cert.Gcn.RefRun.run (F := Ideal) m' ρ')
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
